-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800x1024 : Shape := ⟨2, ![800, 1024]⟩
abbrev S800x10 : Shape := ⟨2, ![800, 10]⟩
abbrev S1024x256 : Shape := ⟨2, ![1024, 256]⟩
abbrev S256x128 : Shape := ⟨2, ![256, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S800x1024 : S_.BroadcastsInDim S800x1024 (![] : Fin 0 → Fin S800x1024.rank)
  reducesTo_S800x1024_S_d0_1 : S800x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x128 : S_.BroadcastsInDim S256x128 (![] : Fin 0 → Fin S256x128.rank)
  reducesTo_S256x128_S_d0_1 : S256x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S256 .f32) (main_arg10 : FVec F S256x64 .f32) (main_arg11 : FVec F S64 .f32) (main_arg12 : FVec F S64x1 .f32) (main_arg13 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S256x128 .f32) (main_arg7 : FVec F S256x128 .f32) (main_arg8 : FVec F S256x256 .f32) (main_arg9 : FVec F S256 .f32) (main_arg10 : FVec F S256x64 .f32) (main_arg11 : FVec F S64 .f32) (main_arg12 : FVec F S64x1 .f32) (main_arg13 : FVec F S1 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S800x1024 .f32) (main_arg1 : IVec S800x10 32) (main_arg2 : FVec F S800x1024 .f32) (main_arg3 : IVec S800x10 32) (main_arg4 : FVec F S1024x256 .f32) (main_arg5 : FVec F S1024x256 .f32) (main_arg6 : FVec F S256x128 .f32) (main_arg7 : FVec F S256x128 .f32) (main_arg8 : FVec F S256x256 .f32) (main_arg9 : FVec F S256 .f32) (main_arg10 : FVec F S256x64 .f32) (main_arg11 : FVec F S64 .f32) (main_arg12 : FVec F S64x1 .f32) (main_arg13 : FVec F S1 .f32) : IVec S_ 1 :=
  let main_v0 : FVec F S800x1024 .f32 := Host.absf main_arg0
  let main_cst : FVec F S_ .f32 := constant S_ .f32 0x7F800000#32
  let main_v1 : FVec F S800x1024 .f32 := broadcastInDim S800x1024 ![] bcast_S_S800x1024 main_cst
  let main_v2 : IVec S800x1024 1 := cmpf .olt main_v0 main_v1
  let main_c : IVec S_ 1 := constantI S_ 1 1#1
  let main_v3 : IVec S_ 1 := (fun x v => Host.reduce IntOp.andi x v reducesTo_S800x1024_S_d0_1 h_S_) main_v2 main_c
  let main_v4 : FVec F S800x1024 .f32 := Host.absf main_arg2
  let main_cst_0 : FVec F S_ .f32 := constant S_ .f32 0x7F800000#32
  let main_v5 : FVec F S800x1024 .f32 := broadcastInDim S800x1024 ![] bcast_S_S800x1024 main_cst_0
  let main_v6 : IVec S800x1024 1 := cmpf .olt main_v4 main_v5
  let main_c_1 : IVec S_ 1 := constantI S_ 1 1#1
  let main_v7 : IVec S_ 1 := (fun x v => Host.reduce IntOp.andi x v reducesTo_S800x1024_S_d0_1 h_S_) main_v6 main_c_1
  let main_v8 : IVec S_ 1 := andi main_v3 main_v7
  let main_v9 : FVec F S1024x256 .f32 := Host.absf main_arg4
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg5
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg6 main_arg7 main_arg8 main_arg9 main_arg10 main_arg11 main_arg12 main_arg13 main_v13 main_v16
-- ==== Kernel.lean ====
abbrev S800x1024 : Shape := ⟨2, ![800, 1024]⟩
abbrev S800x10 : Shape := ⟨2, ![800, 10]⟩
abbrev S1024x256 : Shape := ⟨2, ![1024, 256]⟩
abbrev S256x128 : Shape := ⟨2, ![256, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S800x256 : Shape := ⟨2, ![800, 256]⟩
abbrev S_ : Shape := ⟨0, ![]⟩
abbrev S800x10x1 : Shape := ⟨3, ![800, 10, 1]⟩
abbrev S800x10x256 : Shape := ⟨3, ![800, 10, 256]⟩
abbrev S800 : Shape := ⟨1, ![800]⟩
abbrev S800x1 : Shape := ⟨2, ![800, 1]⟩
abbrev S800x128 : Shape := ⟨2, ![800, 128]⟩
abbrev S800x10x128 : Shape := ⟨3, ![800, 10, 128]⟩
abbrev S896x128 : Shape := ⟨2, ![896, 128]⟩
abbrev S128x256 : Shape := ⟨2, ![128, 256]⟩
abbrev S896x256 : Shape := ⟨2, ![896, 256]⟩
abbrev S1x64 : Shape := ⟨2, ![1, 64]⟩
abbrev S896x896 : Shape := ⟨2, ![896, 896]⟩
abbrev S128x128 : Shape := ⟨2, ![128, 128]⟩
abbrev S128x1x256 : Shape := ⟨3, ![128, 1, 256]⟩
abbrev S1x128x256 : Shape := ⟨3, ![1, 128, 256]⟩
abbrev S128x128x256 : Shape := ⟨3, ![128, 128, 256]⟩
abbrev S1x1x256 : Shape := ⟨3, ![1, 1, 256]⟩
abbrev S16384x256 : Shape := ⟨2, ![16384, 256]⟩
abbrev S16384x64 : Shape := ⟨2, ![16384, 64]⟩
abbrev S128x128x64 : Shape := ⟨3, ![128, 128, 64]⟩
abbrev S1x1x64 : Shape := ⟨3, ![1, 1, 64]⟩
abbrev S1x1 : Shape := ⟨2, ![1, 1]⟩
abbrev S800x800 : Shape := ⟨2, ![800, 800]⟩
abbrev S640000 : Shape := ⟨1, ![640000]⟩

abbrev nBuf : Space → Nat
  | .hbm => 170
  | .vmem => 11
  | .smem => 0
  | _ => 0

abbrev hbmTy0_0 (i : Nat) : BufTy := match i % 128 with
  | 0 => ⟨S800x1024, .f32⟩
  | 1 => ⟨S800x10, .i32⟩
  | 2 => ⟨S800x1024, .f32⟩
  | 3 => ⟨S800x10, .i32⟩
  | 4 => ⟨S1024x256, .f32⟩
  | 5 => ⟨S1024x256, .f32⟩
  | 6 => ⟨S256x128, .f32⟩
  | 7 => ⟨S256x128, .f32⟩
  | 8 => ⟨S256x256, .f32⟩
  | 9 => ⟨S256, .f32⟩
  | 10 => ⟨S256x64, .f32⟩
  | 11 => ⟨S64, .f32⟩
  | 12 => ⟨S64x1, .f32⟩
  | 13 => ⟨S1, .f32⟩
  | 14 => ⟨S800x256, .f32⟩
  | 15 => ⟨S800x256, .f32⟩
  | 16 => ⟨S_, .i32⟩
  | 17 => ⟨S800x10, .i32⟩
  | 18 => ⟨S800x10, .i1⟩
  | 19 => ⟨S_, .i32⟩
  | 20 => ⟨S800x10, .i32⟩
  | 21 => ⟨S800x10, .i1⟩
  | 22 => ⟨S_, .i32⟩
  | 23 => ⟨S800x10, .i32⟩
  | 24 => ⟨S800x10, .i32⟩
  | 25 => ⟨S800x10, .i32⟩
  | 26 => ⟨S800x10x1, .i32⟩
  | 27 => ⟨S800x10x256, .f32⟩
  | 28 => ⟨S800x10x1, .i1⟩
  | 29 => ⟨S800x10x1, .f32⟩
  | 30 => ⟨S800x10x256, .f32⟩
  | 31 => ⟨S800x10x256, .f32⟩
  | 32 => ⟨S800x10, .i32⟩
  | 33 => ⟨S_, .i32⟩
  | 34 => ⟨S800, .i32⟩
  | 35 => ⟨S_, .i32⟩
  | 36 => ⟨S800, .i32⟩
  | 37 => ⟨S800, .i32⟩
  | 38 => ⟨S800, .f32⟩
  | 39 => ⟨S_, .f32⟩
  | 40 => ⟨S800x256, .f32⟩
  | 41 => ⟨S800x1, .f32⟩
  | 42 => ⟨S800x256, .f32⟩
  | 43 => ⟨S800x256, .f32⟩
  | 44 => ⟨S800x256, .f32⟩
  | 45 => ⟨S_, .f32⟩
  | 46 => ⟨S800x256, .f32⟩
  | 47 => ⟨S800x256, .f32⟩
  | 48 => ⟨S800x128, .f32⟩
  | 49 => ⟨S800x128, .f32⟩
  | 50 => ⟨S_, .i32⟩
  | 51 => ⟨S800x10, .i32⟩
  | 52 => ⟨S800x10, .i1⟩
  | 53 => ⟨S_, .i32⟩
  | 54 => ⟨S800x10, .i32⟩
  | 55 => ⟨S800x10, .i1⟩
  | 56 => ⟨S_, .i32⟩
  | 57 => ⟨S800x10, .i32⟩
  | 58 => ⟨S800x10, .i32⟩
  | 59 => ⟨S800x10, .i32⟩
  | 60 => ⟨S800x10x1, .i32⟩
  | 61 => ⟨S800x10x128, .f32⟩
  | 62 => ⟨S800x10x1, .i1⟩
  | 63 => ⟨S800x10x1, .f32⟩
  | 64 => ⟨S800x10x128, .f32⟩
  | 65 => ⟨S800x10x128, .f32⟩
  | 66 => ⟨S800x10, .i32⟩
  | 67 => ⟨S_, .i32⟩
  | 68 => ⟨S800, .i32⟩
  | 69 => ⟨S_, .i32⟩
  | 70 => ⟨S800, .i32⟩
  | 71 => ⟨S800, .i32⟩
  | 72 => ⟨S800, .f32⟩
  | 73 => ⟨S_, .f32⟩
  | 74 => ⟨S800x128, .f32⟩
  | 75 => ⟨S800x1, .f32⟩
  | 76 => ⟨S800x128, .f32⟩
  | 77 => ⟨S800x128, .f32⟩
  | 78 => ⟨S800x128, .f32⟩
  | 79 => ⟨S_, .f32⟩
  | 80 => ⟨S800x128, .f32⟩
  | 81 => ⟨S800x128, .f32⟩
  | 82 => ⟨S800x256, .f32⟩
  | 83 => ⟨S800x256, .f32⟩
  | 84 => ⟨S_, .i32⟩
  | 85 => ⟨S800x10, .i32⟩
  | 86 => ⟨S800x10, .i1⟩
  | 87 => ⟨S_, .i32⟩
  | 88 => ⟨S800x10, .i32⟩
  | 89 => ⟨S800x10, .i1⟩
  | 90 => ⟨S_, .i32⟩
  | 91 => ⟨S800x10, .i32⟩
  | 92 => ⟨S800x10, .i32⟩
  | 93 => ⟨S800x10, .i32⟩
  | 94 => ⟨S800x10x1, .i32⟩
  | 95 => ⟨S800x10x256, .f32⟩
  | 96 => ⟨S800x10x1, .i1⟩
  | 97 => ⟨S800x10x1, .f32⟩
  | 98 => ⟨S800x10x256, .f32⟩
  | 99 => ⟨S800x10x256, .f32⟩
  | 100 => ⟨S800x10, .i32⟩
  | 101 => ⟨S_, .i32⟩
  | 102 => ⟨S800, .i32⟩
  | 103 => ⟨S_, .i32⟩
  | 104 => ⟨S800, .i32⟩
  | 105 => ⟨S800, .i32⟩
  | 106 => ⟨S800, .f32⟩
  | 107 => ⟨S_, .f32⟩
  | 108 => ⟨S800x256, .f32⟩
  | 109 => ⟨S800x1, .f32⟩
  | 110 => ⟨S800x256, .f32⟩
  | 111 => ⟨S800x256, .f32⟩
  | 112 => ⟨S800x256, .f32⟩
  | 113 => ⟨S_, .f32⟩
  | 114 => ⟨S800x256, .f32⟩
  | 115 => ⟨S800x256, .f32⟩
  | 116 => ⟨S800x128, .f32⟩
  | 117 => ⟨S800x128, .f32⟩
  | 118 => ⟨S_, .i32⟩
  | 119 => ⟨S800x10, .i32⟩
  | 120 => ⟨S800x10, .i1⟩
  | 121 => ⟨S_, .i32⟩
  | 122 => ⟨S800x10, .i32⟩
  | 123 => ⟨S800x10, .i1⟩
  | 124 => ⟨S_, .i32⟩
  | 125 => ⟨S800x10, .i32⟩
  | 126 => ⟨S800x10, .i32⟩
  | 127 => ⟨S800x10, .i32⟩
  | _ => ⟨S800x1024, .f32⟩

abbrev hbmTy0_1 (i : Nat) : BufTy := match i % 128 with
  | 0 => ⟨S800x10x1, .i32⟩
  | 1 => ⟨S800x10x128, .f32⟩
  | 2 => ⟨S800x10x1, .i1⟩
  | 3 => ⟨S800x10x1, .f32⟩
  | 4 => ⟨S800x10x128, .f32⟩
  | 5 => ⟨S800x10x128, .f32⟩
  | 6 => ⟨S800x10, .i32⟩
  | 7 => ⟨S_, .i32⟩
  | 8 => ⟨S800, .i32⟩
  | 9 => ⟨S_, .i32⟩
  | 10 => ⟨S800, .i32⟩
  | 11 => ⟨S800, .i32⟩
  | 12 => ⟨S800, .f32⟩
  | 13 => ⟨S_, .f32⟩
  | 14 => ⟨S800x128, .f32⟩
  | 15 => ⟨S800x1, .f32⟩
  | 16 => ⟨S800x128, .f32⟩
  | 17 => ⟨S800x128, .f32⟩
  | 18 => ⟨S800x128, .f32⟩
  | 19 => ⟨S_, .f32⟩
  | 20 => ⟨S800x128, .f32⟩
  | 21 => ⟨S800x128, .f32⟩
  | 22 => ⟨S_, .i32⟩
  | 23 => ⟨S_, .f32⟩
  | 24 => ⟨S896x128, .f32⟩
  | 25 => ⟨S_, .i32⟩
  | 26 => ⟨S_, .f32⟩
  | 27 => ⟨S896x128, .f32⟩
  | 28 => ⟨S128x256, .f32⟩
  | 29 => ⟨S128x256, .f32⟩
  | 30 => ⟨S896x128, .bf16⟩
  | 31 => ⟨S128x256, .bf16⟩
  | 32 => ⟨S896x256, .f32⟩
  | 33 => ⟨S896x256, .bf16⟩
  | 34 => ⟨S896x128, .bf16⟩
  | 35 => ⟨S128x256, .bf16⟩
  | 36 => ⟨S896x256, .f32⟩
  | 37 => ⟨S896x256, .bf16⟩
  | 38 => ⟨S1x64, .f32⟩
  | 39 => ⟨S896x896, .f32⟩
  | 40 => ⟨S800x800, .f32⟩
  | 41 => ⟨S640000, .f32⟩
  | _ => ⟨S800x1024, .f32⟩

abbrev hbmTy (i : Nat) : BufTy := match i / 128 with
  | 0 => hbmTy0_0 i
  | 1 => hbmTy0_1 i
  | _ => ⟨S800x1024, .f32⟩

abbrev bufTy : (tb : Table) → Fin (tcTables nBuf tb) → BufTy
  | .hbm, ⟨i, _⟩ => hbmTy i
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S256, .f32⟩
  | .local _ .vmem, ⟨5, _⟩ => ⟨S256x64, .f32⟩
  | .local _ .vmem, ⟨6, _⟩ => ⟨S64, .f32⟩
  | .local _ .vmem, ⟨7, _⟩ => ⟨S1x64, .f32⟩
  | .local _ .vmem, ⟨8, _⟩ => ⟨S1, .f32⟩
  | .local _ .vmem, ⟨9, _⟩ => ⟨S128x128, .f32⟩
  | .local _ .vmem, ⟨10, _⟩ => ⟨S128x128, .f32⟩
  | _, _ => ⟨S800x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_cst : Ref sig .tc := ⟨.hbm, 45, rfl⟩
abbrev main_call0_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call1_cst : Ref sig .tc := ⟨.hbm, 79, rfl⟩
abbrev main_call1_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call2_cst : Ref sig .tc := ⟨.hbm, 113, rfl⟩
abbrev main_call2_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_c_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call3_cst : Ref sig .tc := ⟨.hbm, 147, rfl⟩
abbrev main_call3_v0 : Ref sig .tc := ⟨.hbm, 148, rfl⟩
abbrev main_v103 : Ref sig .tc := ⟨.hbm, 149, rfl⟩
abbrev main_c_22 : Ref sig .tc := ⟨.hbm, 150, rfl⟩
abbrev main_call4_v0 : Ref sig .tc := ⟨.hbm, 151, rfl⟩
abbrev main_v104 : Ref sig .tc := ⟨.hbm, 152, rfl⟩
abbrev main_c_23 : Ref sig .tc := ⟨.hbm, 153, rfl⟩
abbrev main_call5_v0 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![7, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S800x10 : S_.BroadcastsInDim S800x10 (![] : Fin 0 → Fin S800x10.rank)
  bcast_S800x10_S800x10x1_0_1 : S800x10.BroadcastsInDim S800x10x1 (![0, 1] : Fin 2 → Fin S800x10x1.rank)
  bcast_S800x10x1_S800x10x256_0_1_2 : S800x10x1.BroadcastsInDim S800x10x256 (![0, 1, 2] : Fin 3 → Fin S800x10x256.rank)
  natLt_1_32 : 1 < 32
  reducesTo_S800x10_S800_d1 : S800x10.ReducesTo [1] S800
  h_S_ : 0 < S_.numel
  bcast_S_S800 : S_.BroadcastsInDim S800 (![] : Fin 0 → Fin S800.rank)
  reducesTo_S800x10x256_S800x256_d1 : S800x10x256.ReducesTo [1] S800x256
  bcast_S800_S800x1_0 : S800.BroadcastsInDim S800x1 (![0] : Fin 1 → Fin S800x1.rank)
  bcast_S800x1_S800x256_0_1 : S800x1.BroadcastsInDim S800x256 (![0, 1] : Fin 2 → Fin S800x256.rank)
  bcast_S_S800x256 : S_.BroadcastsInDim S800x256 (![] : Fin 0 → Fin S800x256.rank)
  bcast_S800x10x1_S800x10x128_0_1_2 : S800x10x1.BroadcastsInDim S800x10x128 (![0, 1, 2] : Fin 3 → Fin S800x10x128.rank)
  reducesTo_S800x10x128_S800x128_d1 : S800x10x128.ReducesTo [1] S800x128
  bcast_S800x1_S800x128_0_1 : S800x1.BroadcastsInDim S800x128 (![0, 1] : Fin 2 → Fin S800x128.rank)
  bcast_S_S800x128 : S_.BroadcastsInDim S800x128 (![] : Fin 0 → Fin S800x128.rank)
  pads_S800x128_S896x128_0960_000 : S800x128.Pads (![0, 0] : Fin 2 → Nat) ![96, 0] ![0, 0] S896x128
  slices_S256x256_S128x256_0_0 : S256x256.Slices ![0, 0] S128x256
  slices_S256x256_S128x256_128_0 : S256x256.Slices ![128, 0] S128x256
  bitsLt_bf16_f32 : FTy.bits .bf16 < FTy.bits .f32
  shapeCasts_S64x1_S1x64 : S64x1.ShapeCasts S1x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  shapeCasts_S256_S1x1x256 : S256.ShapeCasts S1x1x256
  broadcasts_S1x1x256_S128x128x256 : S1x1x256.Broadcasts S128x128x256
  shapeCasts_S128x128x256_S16384x256 : S128x128x256.ShapeCasts S16384x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  shapeCasts_S16384x64_S128x128x64 : S16384x64.ShapeCasts S128x128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1_S1_0 : ∀ a, (![0] : Fin 1 → Nat) a + S1.size a ≤ S1.size a
  h_S1 : 0 < S1.numel
  broadcasts_S1x1x64_S128x128x64 : S1x1x64.Broadcasts S128x128x64
  reduces_S128x128x64_S128x128 : S128x128x64.Reduces [2] S128x128
  shapeCasts_S1_S1x1 : S1.ShapeCasts S1x1
  broadcasts_S1x1_S128x128 : S1x1.Broadcasts S128x128
  inb_S128x128_S128x128_0_0 : ∀ a, (![0, 0] : Fin 2 → Nat) a + S128x128.size a ≤ S128x128.size a
  h_S128x128 : 0 < S128x128.numel
  slices_S896x896_S800x800_0_0 : S896x896.Slices ![0, 0] S800x800
  shapeCasts_S800x800_S640000 : S800x800.ShapeCasts S640000
  dot_S800x1024_S1024x256_S800x256_1_0_0_1_n_n_wf : DotDims.WF S800x1024 S1024x256 S800x256 [1] [0] [0] [1] [] []
  gather_S800x256_S800x10x1_S800x10x256_2_0_n_n_0_2_1256_wf : GatherDims.WF S800x256 S800x10x1 S800x10x256 [2] [0] [] [0] [] 2 ![1, 256]
  dot_S800x256_S256x128_S800x128_1_0_0_1_n_n_wf : DotDims.WF S800x256 S256x128 S800x128 [1] [0] [0] [1] [] []
  gather_S800x128_S800x10x1_S800x10x128_2_0_n_n_0_2_1128_wf : GatherDims.WF S800x128 S800x10x1 S800x10x128 [2] [0] [] [0] [] 2 ![1, 128]
  dot_S896x128_S128x256_S896x256_1_0_0_1_n_n_wf : DotDims.WF S896x128 S128x256 S896x256 [1] [0] [0] [1] [] []
  dot_S16384x256_S256x64_S16384x64_1_0_0_1_n_n_wf : DotDims.WF S16384x256 S256x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S896x256.size a
  hwx0_0 : ∀ i : grid0.Coords, EltTy.bits .bf16 = 32 ∨ (Rect.block (s := S896x256) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S896x256.size a
  hwx0_1 : ∀ i : grid0.Coords, EltTy.bits .bf16 = 32 ∨ (Rect.block (s := S896x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S896x896.size a
  hwx0_7 : ∀ i : grid0.Coords, EltTy.bits .f32 = 32 ∨ (Rect.block (s := S896x896) S128x128.size (cc0_transform_7 i) (hinb0_7 i)).WholeWords (EltTy.packing .f32)

variable [Facts₀]

def dot_S800x1024_S1024x256_S800x256_1_0_0_1_n_n : DotDims S800x1024 S1024x256 S800x256 where
  lhsContracting := [1]
  rhsContracting := [0]
  lhsNonContracting := [0]
  rhsNonContracting := [1]
  lhsBatch := []
  rhsBatch := []
  wf := dot_S800x1024_S1024x256_S800x256_1_0_0_1_n_n_wf
def gather_S800x256_S800x10x1_S800x10x256_2_0_n_n_0_2_1256 : GatherDims S800x256 S800x10x1 S800x10x256 where
  offsetDims := [2]
  collapsedSliceDims := [0]
  operandBatchingDims := []
  startIndicesBatchingDims := []
  startIndexMap := [0]
  indexVectorDim := 2
  sliceSizes := ![1, 256]
  wf := gather_S800x256_S800x10x1_S800x10x256_2_0_n_n_0_2_1256_wf
def dot_S800x256_S256x128_S800x128_1_0_0_1_n_n : DotDims S800x256 S256x128 S800x128 where
  lhsContracting := [1]
  rhsContracting := [0]
  lhsNonContracting := [0]
  rhsNonContracting := [1]
  lhsBatch := []
  rhsBatch := []
  wf := dot_S800x256_S256x128_S800x128_1_0_0_1_n_n_wf
def gather_S800x128_S800x10x1_S800x10x128_2_0_n_n_0_2_1128 : GatherDims S800x128 S800x10x1 S800x10x128 where
  offsetDims := [2]
  collapsedSliceDims := [0]
  operandBatchingDims := []
  startIndicesBatchingDims := []
  startIndexMap := [0]
  indexVectorDim := 2
  sliceSizes := ![1, 128]
  wf := gather_S800x128_S800x10x1_S800x10x128_2_0_n_n_0_2_1128_wf
def dot_S896x128_S128x256_S896x256_1_0_0_1_n_n : DotDims S896x128 S128x256 S896x256 where
  lhsContracting := [1]
  rhsContracting := [0]
  lhsNonContracting := [0]
  rhsNonContracting := [1]
  lhsBatch := []
  rhsBatch := []
  wf := dot_S896x128_S128x256_S896x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf

abbrev win0_0 : Pipeline.Window sig grid0 :=
  Pipeline.Window.ofSpec (Memref.whole main_v111) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v115) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v116) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v117) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S800x1024 : Shape := ⟨2, ![800, 1024]⟩
abbrev S800x10 : Shape := ⟨2, ![800, 10]⟩
abbrev S1024x256 : Shape := ⟨2, ![1024, 256]⟩
abbrev S256x128 : Shape := ⟨2, ![256, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S800x256 : Shape := ⟨2, ![800, 256]⟩
abbrev S_ : Shape := ⟨0, ![]⟩
abbrev S800x10x1 : Shape := ⟨3, ![800, 10, 1]⟩
abbrev S800x10x256 : Shape := ⟨3, ![800, 10, 256]⟩
abbrev S800 : Shape := ⟨1, ![800]⟩
abbrev S800x1 : Shape := ⟨2, ![800, 1]⟩
abbrev S800x128 : Shape := ⟨2, ![800, 128]⟩
abbrev S800x10x128 : Shape := ⟨3, ![800, 10, 128]⟩
abbrev S800x1x128 : Shape := ⟨3, ![800, 1, 128]⟩
abbrev S800x800x128 : Shape := ⟨3, ![800, 800, 128]⟩
abbrev S1x800x128 : Shape := ⟨3, ![1, 800, 128]⟩
abbrev S800x800x256 : Shape := ⟨3, ![800, 800, 256]⟩
abbrev S640000x256 : Shape := ⟨2, ![640000, 256]⟩
abbrev S1x256 : Shape := ⟨2, ![1, 256]⟩
abbrev S640000x64 : Shape := ⟨2, ![640000, 64]⟩
abbrev S1x64 : Shape := ⟨2, ![1, 64]⟩
abbrev S640000x1 : Shape := ⟨2, ![640000, 1]⟩
abbrev S1x1 : Shape := ⟨2, ![1, 1]⟩
abbrev S640000 : Shape := ⟨1, ![640000]⟩

abbrev nBuf : Space → Nat
  | .hbm => 175
  | .vmem => 0
  | .smem => 0
  | _ => 0

abbrev hbmTy0_0 (i : Nat) : BufTy := match i % 128 with
  | 0 => ⟨S800x1024, .f32⟩
  | 1 => ⟨S800x10, .i32⟩
  | 2 => ⟨S800x1024, .f32⟩
  | 3 => ⟨S800x10, .i32⟩
  | 4 => ⟨S1024x256, .f32⟩
  | 5 => ⟨S1024x256, .f32⟩
  | 6 => ⟨S256x128, .f32⟩
  | 7 => ⟨S256x128, .f32⟩
  | 8 => ⟨S256x256, .f32⟩
  | 9 => ⟨S256, .f32⟩
  | 10 => ⟨S256x64, .f32⟩
  | 11 => ⟨S64, .f32⟩
  | 12 => ⟨S64x1, .f32⟩
  | 13 => ⟨S1, .f32⟩
  | 14 => ⟨S800x256, .f32⟩
  | 15 => ⟨S800x256, .f32⟩
  | 16 => ⟨S_, .i32⟩
  | 17 => ⟨S800x10, .i32⟩
  | 18 => ⟨S800x10, .i1⟩
  | 19 => ⟨S_, .i32⟩
  | 20 => ⟨S800x10, .i32⟩
  | 21 => ⟨S800x10, .i1⟩
  | 22 => ⟨S_, .i32⟩
  | 23 => ⟨S800x10, .i32⟩
  | 24 => ⟨S800x10, .i32⟩
  | 25 => ⟨S800x10, .i32⟩
  | 26 => ⟨S800x10x1, .i32⟩
  | 27 => ⟨S800x10x256, .f32⟩
  | 28 => ⟨S800x10x1, .i1⟩
  | 29 => ⟨S800x10x1, .f32⟩
  | 30 => ⟨S800x10x256, .f32⟩
  | 31 => ⟨S800x10x256, .f32⟩
  | 32 => ⟨S800x10, .i32⟩
  | 33 => ⟨S_, .i32⟩
  | 34 => ⟨S800, .i32⟩
  | 35 => ⟨S_, .i32⟩
  | 36 => ⟨S800, .i32⟩
  | 37 => ⟨S800, .i32⟩
  | 38 => ⟨S800, .f32⟩
  | 39 => ⟨S_, .f32⟩
  | 40 => ⟨S800x256, .f32⟩
  | 41 => ⟨S800x1, .f32⟩
  | 42 => ⟨S800x256, .f32⟩
  | 43 => ⟨S800x256, .f32⟩
  | 44 => ⟨S800x256, .f32⟩
  | 45 => ⟨S_, .f32⟩
  | 46 => ⟨S800x256, .f32⟩
  | 47 => ⟨S800x256, .f32⟩
  | 48 => ⟨S800x128, .f32⟩
  | 49 => ⟨S800x128, .f32⟩
  | 50 => ⟨S_, .i32⟩
  | 51 => ⟨S800x10, .i32⟩
  | 52 => ⟨S800x10, .i1⟩
  | 53 => ⟨S_, .i32⟩
  | 54 => ⟨S800x10, .i32⟩
  | 55 => ⟨S800x10, .i1⟩
  | 56 => ⟨S_, .i32⟩
  | 57 => ⟨S800x10, .i32⟩
  | 58 => ⟨S800x10, .i32⟩
  | 59 => ⟨S800x10, .i32⟩
  | 60 => ⟨S800x10x1, .i32⟩
  | 61 => ⟨S800x10x128, .f32⟩
  | 62 => ⟨S800x10x1, .i1⟩
  | 63 => ⟨S800x10x1, .f32⟩
  | 64 => ⟨S800x10x128, .f32⟩
  | 65 => ⟨S800x10x128, .f32⟩
  | 66 => ⟨S800x10, .i32⟩
  | 67 => ⟨S_, .i32⟩
  | 68 => ⟨S800, .i32⟩
  | 69 => ⟨S_, .i32⟩
  | 70 => ⟨S800, .i32⟩
  | 71 => ⟨S800, .i32⟩
  | 72 => ⟨S800, .f32⟩
  | 73 => ⟨S_, .f32⟩
  | 74 => ⟨S800x128, .f32⟩
  | 75 => ⟨S800x1, .f32⟩
  | 76 => ⟨S800x128, .f32⟩
  | 77 => ⟨S800x128, .f32⟩
  | 78 => ⟨S800x128, .f32⟩
  | 79 => ⟨S_, .f32⟩
  | 80 => ⟨S800x128, .f32⟩
  | 81 => ⟨S800x128, .f32⟩
  | 82 => ⟨S800x256, .f32⟩
  | 83 => ⟨S800x256, .f32⟩
  | 84 => ⟨S_, .i32⟩
  | 85 => ⟨S800x10, .i32⟩
  | 86 => ⟨S800x10, .i1⟩
  | 87 => ⟨S_, .i32⟩
  | 88 => ⟨S800x10, .i32⟩
  | 89 => ⟨S800x10, .i1⟩
  | 90 => ⟨S_, .i32⟩
  | 91 => ⟨S800x10, .i32⟩
  | 92 => ⟨S800x10, .i32⟩
  | 93 => ⟨S800x10, .i32⟩
  | 94 => ⟨S800x10x1, .i32⟩
  | 95 => ⟨S800x10x256, .f32⟩
  | 96 => ⟨S800x10x1, .i1⟩
  | 97 => ⟨S800x10x1, .f32⟩
  | 98 => ⟨S800x10x256, .f32⟩
  | 99 => ⟨S800x10x256, .f32⟩
  | 100 => ⟨S800x10, .i32⟩
  | 101 => ⟨S_, .i32⟩
  | 102 => ⟨S800, .i32⟩
  | 103 => ⟨S_, .i32⟩
  | 104 => ⟨S800, .i32⟩
  | 105 => ⟨S800, .i32⟩
  | 106 => ⟨S800, .f32⟩
  | 107 => ⟨S_, .f32⟩
  | 108 => ⟨S800x256, .f32⟩
  | 109 => ⟨S800x1, .f32⟩
  | 110 => ⟨S800x256, .f32⟩
  | 111 => ⟨S800x256, .f32⟩
  | 112 => ⟨S800x256, .f32⟩
  | 113 => ⟨S_, .f32⟩
  | 114 => ⟨S800x256, .f32⟩
  | 115 => ⟨S800x256, .f32⟩
  | 116 => ⟨S800x128, .f32⟩
  | 117 => ⟨S800x128, .f32⟩
  | 118 => ⟨S_, .i32⟩
  | 119 => ⟨S800x10, .i32⟩
  | 120 => ⟨S800x10, .i1⟩
  | 121 => ⟨S_, .i32⟩
  | 122 => ⟨S800x10, .i32⟩
  | 123 => ⟨S800x10, .i1⟩
  | 124 => ⟨S_, .i32⟩
  | 125 => ⟨S800x10, .i32⟩
  | 126 => ⟨S800x10, .i32⟩
  | 127 => ⟨S800x10, .i32⟩
  | _ => ⟨S800x1024, .f32⟩

abbrev hbmTy0_1 (i : Nat) : BufTy := match i % 128 with
  | 0 => ⟨S800x10x1, .i32⟩
  | 1 => ⟨S800x10x128, .f32⟩
  | 2 => ⟨S800x10x1, .i1⟩
  | 3 => ⟨S800x10x1, .f32⟩
  | 4 => ⟨S800x10x128, .f32⟩
  | 5 => ⟨S800x10x128, .f32⟩
  | 6 => ⟨S800x10, .i32⟩
  | 7 => ⟨S_, .i32⟩
  | 8 => ⟨S800, .i32⟩
  | 9 => ⟨S_, .i32⟩
  | 10 => ⟨S800, .i32⟩
  | 11 => ⟨S800, .i32⟩
  | 12 => ⟨S800, .f32⟩
  | 13 => ⟨S_, .f32⟩
  | 14 => ⟨S800x128, .f32⟩
  | 15 => ⟨S800x1, .f32⟩
  | 16 => ⟨S800x128, .f32⟩
  | 17 => ⟨S800x128, .f32⟩
  | 18 => ⟨S800x128, .f32⟩
  | 19 => ⟨S_, .f32⟩
  | 20 => ⟨S800x128, .f32⟩
  | 21 => ⟨S800x128, .f32⟩
  | 22 => ⟨S800x1x128, .f32⟩
  | 23 => ⟨S800x800x128, .f32⟩
  | 24 => ⟨S1x800x128, .f32⟩
  | 25 => ⟨S800x800x128, .f32⟩
  | 26 => ⟨S800x800x256, .f32⟩
  | 27 => ⟨S640000x256, .f32⟩
  | 28 => ⟨S640000x256, .f32⟩
  | 29 => ⟨S1x256, .f32⟩
  | 30 => ⟨S640000x256, .f32⟩
  | 31 => ⟨S640000x256, .f32⟩
  | 32 => ⟨S_, .f32⟩
  | 33 => ⟨S640000x256, .f32⟩
  | 34 => ⟨S640000x256, .f32⟩
  | 35 => ⟨S640000x64, .f32⟩
  | 36 => ⟨S1x64, .f32⟩
  | 37 => ⟨S640000x64, .f32⟩
  | 38 => ⟨S640000x64, .f32⟩
  | 39 => ⟨S_, .f32⟩
  | 40 => ⟨S640000x64, .f32⟩
  | 41 => ⟨S640000x64, .f32⟩
  | 42 => ⟨S640000x1, .f32⟩
  | 43 => ⟨S1x1, .f32⟩
  | 44 => ⟨S640000x1, .f32⟩
  | 45 => ⟨S640000x1, .f32⟩
  | 46 => ⟨S640000, .f32⟩
  | _ => ⟨S800x1024, .f32⟩

abbrev hbmTy (i : Nat) : BufTy := match i / 128 with
  | 0 => hbmTy0_0 i
  | 1 => hbmTy0_1 i
  | _ => ⟨S800x1024, .f32⟩

abbrev bufTy : (tb : Table) → Fin (tcTables nBuf tb) → BufTy
  | .hbm, ⟨i, _⟩ => hbmTy i
  | _, _ => ⟨S800x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_cst : Ref sig .tc := ⟨.hbm, 45, rfl⟩
abbrev main_call0_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call1_cst : Ref sig .tc := ⟨.hbm, 79, rfl⟩
abbrev main_call1_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call2_cst : Ref sig .tc := ⟨.hbm, 113, rfl⟩
abbrev main_call2_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_c_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call3_cst : Ref sig .tc := ⟨.hbm, 147, rfl⟩
abbrev main_call3_v0 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_call4_cst : Ref sig .tc := ⟨.hbm, 160, rfl⟩
abbrev main_call4_v0 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call5_cst : Ref sig .tc := ⟨.hbm, 167, rfl⟩
abbrev main_call5_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  bcast_S_S800x10 : S_.BroadcastsInDim S800x10 (![] : Fin 0 → Fin S800x10.rank)
  bcast_S800x10_S800x10x1_0_1 : S800x10.BroadcastsInDim S800x10x1 (![0, 1] : Fin 2 → Fin S800x10x1.rank)
  bcast_S800x10x1_S800x10x256_0_1_2 : S800x10x1.BroadcastsInDim S800x10x256 (![0, 1, 2] : Fin 3 → Fin S800x10x256.rank)
  natLt_1_32 : 1 < 32
  reducesTo_S800x10_S800_d1 : S800x10.ReducesTo [1] S800
  h_S_ : 0 < S_.numel
  bcast_S_S800 : S_.BroadcastsInDim S800 (![] : Fin 0 → Fin S800.rank)
  reducesTo_S800x10x256_S800x256_d1 : S800x10x256.ReducesTo [1] S800x256
  bcast_S800_S800x1_0 : S800.BroadcastsInDim S800x1 (![0] : Fin 1 → Fin S800x1.rank)
  bcast_S800x1_S800x256_0_1 : S800x1.BroadcastsInDim S800x256 (![0, 1] : Fin 2 → Fin S800x256.rank)
  bcast_S_S800x256 : S_.BroadcastsInDim S800x256 (![] : Fin 0 → Fin S800x256.rank)
  bcast_S800x10x1_S800x10x128_0_1_2 : S800x10x1.BroadcastsInDim S800x10x128 (![0, 1, 2] : Fin 3 → Fin S800x10x128.rank)
  reducesTo_S800x10x128_S800x128_d1 : S800x10x128.ReducesTo [1] S800x128
  bcast_S800x1_S800x128_0_1 : S800x1.BroadcastsInDim S800x128 (![0, 1] : Fin 2 → Fin S800x128.rank)
  bcast_S_S800x128 : S_.BroadcastsInDim S800x128 (![] : Fin 0 → Fin S800x128.rank)
  bcast_S800x128_S800x1x128_0_2 : S800x128.BroadcastsInDim S800x1x128 (![0, 2] : Fin 2 → Fin S800x1x128.rank)
  bcast_S800x1x128_S800x800x128_0_1_2 : S800x1x128.BroadcastsInDim S800x800x128 (![0, 1, 2] : Fin 3 → Fin S800x800x128.rank)
  bcast_S800x128_S1x800x128_1_2 : S800x128.BroadcastsInDim S1x800x128 (![1, 2] : Fin 2 → Fin S1x800x128.rank)
  bcast_S1x800x128_S800x800x128_0_1_2 : S1x800x128.BroadcastsInDim S800x800x128 (![0, 1, 2] : Fin 3 → Fin S800x800x128.rank)
  concatenates_S800x800x128_S800x800x128_S800x800x256_d2 : Shape.Concatenates [S800x800x128, S800x800x128] S800x800x256 2
  shapeCasts_S800x800x256_S640000x256 : S800x800x256.ShapeCasts S640000x256
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S640000 : S640000x1.ShapeCasts S640000
  dot_S800x1024_S1024x256_S800x256_1_0_0_1_n_n_wf : DotDims.WF S800x1024 S1024x256 S800x256 [1] [0] [0] [1] [] []
  gather_S800x256_S800x10x1_S800x10x256_2_0_n_n_0_2_1256_wf : GatherDims.WF S800x256 S800x10x1 S800x10x256 [2] [0] [] [0] [] 2 ![1, 256]
  dot_S800x256_S256x128_S800x128_1_0_0_1_n_n_wf : DotDims.WF S800x256 S256x128 S800x128 [1] [0] [0] [1] [] []
  gather_S800x128_S800x10x1_S800x10x128_2_0_n_n_0_2_1128_wf : GatherDims.WF S800x128 S800x10x1 S800x10x128 [2] [0] [] [0] [] 2 ![1, 128]
  dot_S640000x256_S256x256_S640000x256_1_0_0_1_n_n_wf : DotDims.WF S640000x256 S256x256 S640000x256 [1] [0] [0] [1] [] []
  dot_S640000x256_S256x64_S640000x64_1_0_0_1_n_n_wf : DotDims.WF S640000x256 S256x64 S640000x64 [1] [0] [0] [1] [] []
  dot_S640000x64_S64x1_S640000x1_1_0_0_1_n_n_wf : DotDims.WF S640000x64 S64x1 S640000x1 [1] [0] [0] [1] [] []

variable [Facts₀]

def dot_S800x1024_S1024x256_S800x256_1_0_0_1_n_n : DotDims S800x1024 S1024x256 S800x256 where
  lhsContracting := [1]
  rhsContracting := [0]
  lhsNonContracting := [0]
  rhsNonContracting := [1]
  lhsBatch := []
  rhsBatch := []
  wf := dot_S800x1024_S1024x256_S800x256_1_0_0_1_n_n_wf
def gather_S800x256_S800x10x1_S800x10x256_2_0_n_n_0_2_1256 : GatherDims S800x256 S800x10x1 S800x10x256 where
  offsetDims := [2]
  collapsedSliceDims := [0]
  operandBatchingDims := []
  startIndicesBatchingDims := []
  startIndexMap := [0]
  indexVectorDim := 2
  sliceSizes := ![1, 256]
  wf := gather_S800x256_S800x10x1_S800x10x256_2_0_n_n_0_2_1256_wf
def dot_S800x256_S256x128_S800x128_1_0_0_1_n_n : DotDims S800x256 S256x128 S800x128 where
  lhsContracting := [1]
  rhsContracting := [0]
  lhsNonContracting := [0]
  rhsNonContracting := [1]
  lhsBatch := []
  rhsBatch := []
  wf := dot_S800x256_S256x128_S800x128_1_0_0_1_n_n_wf
def gather_S800x128_S800x10x1_S800x10x128_2_0_n_n_0_2_1128 : GatherDims S800x128 S800x10x1 S800x10x128 where
  offsetDims := [2]
  collapsedSliceDims := [0]
  operandBatchingDims := []
  startIndicesBatchingDims := []
  startIndexMap := [0]
  indexVectorDim := 2
  sliceSizes := ![1, 128]
  wf := gather_S800x128_S800x10x1_S800x10x128_2_0_n_n_0_2_1128_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def dot_S640000x256_S256x64_S640000x64_1_0_0_1_n_n : DotDims S640000x256 S256x64 S640000x64 where
  lhsContracting := [1]
  rhsContracting := [0]
  lhsNonContracting := [0]
  rhsNonContracting := [1]
  lhsBatch := []
  rhsBatch := []
  wf := dot_S640000x256_S256x64_S640000x64_1_0_0_1_n_n_wf
def dot_S640000x64_S64x1_S640000x1_1_0_0_1_n_n : DotDims S640000x64 S64x1 S640000x1 where
  lhsContracting := [1]
  rhsContracting := [0]
  lhsNonContracting := [0]
  rhsNonContracting := [1]
  lhsBatch := []
  rhsBatch := []
  wf := dot_S640000x64_S64x1_S640000x1_1_0_0_1_n_n_wf

class Facts : Prop extends Facts₀ where

variable [Facts]
-- ==== Proof.Spec.lean ====
/-
  The score of one pair of residues, as a function of the two residues' feature rows and the dense layers' weights,
  on the extended reals.

  A pair (i, j) is scored by three dense layers on the concatenation of row i of the first feature table and row j of
  the second: a 256 → 256 layer with ReLU, a 256 → 64 layer with ReLU, and a 64 → 1 layer. The first layer can be taken
  in two ways. Either the two 128-wide rows are joined into one 256-wide row which is contracted against the whole
  weight matrix (`actConcat`); or each row is contracted against its own half of the weight matrix, rows 0–127 for the
  first and rows 128–255 for the second, and the two results are added (`actSplit`). The two agree because a sum over
  256 positions is the sum over the first 128 plus the sum over the last 128, and addition of extended reals is
  commutative and associative: no finiteness is needed (`actConcat_eq_actSplit`).
-/
import Mathlib.Algebra.BigOperators.Fin
import Idealize.ShloMosaic.PureOps.Ideal

noncomputable section

namespace Cert.PairScore

open scoped BigOperators

/-- The joined feature row of a pair: the first row's 128 entries, then the second row's. -/
def pairRow (u v : Fin 128 → EReal) (k : Fin 256) : EReal :=
  if h : k.val < 128 then u ⟨k.val, h⟩ else v ⟨k.val - 128, by have := k.isLt; omega⟩

/-- The first layer's activation at output feature `c`, from the joined row against the whole weight matrix. -/
def actConcat (u v : Fin 128 → EReal) (W0 : Fin 256 → Fin 256 → EReal) (b0 : Fin 256 → EReal) (c : Fin 256) : EReal :=
  max ((∑ k : Fin 256, pairRow u v k * W0 k c) + b0 c) 0

/-- The first layer's activation at output feature `c`, from each row against its own half of the weight matrix. -/
def actSplit (u v : Fin 128 → EReal) (W0 : Fin 256 → Fin 256 → EReal) (b0 : Fin 256 → EReal) (c : Fin 256) : EReal :=
  max (((∑ k : Fin 128, u k * W0 ⟨k.val, by have := k.isLt; omega⟩ c)
      + (∑ k : Fin 128, v k * W0 ⟨128 + k.val, by have := k.isLt; omega⟩ c)) + b0 c) 0

/-- The last two layers: from a pair's 256 first-layer activations to its score. -/
def score (h : Fin 256 → EReal) (W1 : Fin 256 → Fin 64 → EReal) (b1 : Fin 64 → EReal) (W2 : Fin 64 → EReal) (b2 : EReal) : EReal :=
  (∑ d : Fin 64, max ((∑ c : Fin 256, h c * W1 c d) + b1 d) 0 * W2 d) + b2

/-- A contraction of the joined row over its 256 positions is the contraction of the first row over positions 0–127
    plus that of the second row over positions 128–255. -/
theorem sum_pairRow (u v : Fin 128 → EReal) (w : Fin 256 → EReal) :
    (∑ k : Fin 256, pairRow u v k * w k)
      = (∑ k : Fin 128, u k * w ⟨k.val, by have := k.isLt; omega⟩)
        + (∑ k : Fin 128, v k * w ⟨128 + k.val, by have := k.isLt; omega⟩) := by
  have h := Fin.sum_univ_add (M := EReal) (a := 128) (b := 128) (fun k : Fin (128 + 128) => pairRow u v k * w k)
  refine h.trans ?_
  congr 1

/-- The two ways of taking the first layer agree, for all extended-real entries. -/
theorem actConcat_eq_actSplit (u v : Fin 128 → EReal) (W0 : Fin 256 → Fin 256 → EReal) (b0 : Fin 256 → EReal) :
    actConcat u v W0 b0 = actSplit u v W0 b0 := by
  funext c
  unfold actConcat actSplit
  rw [sum_pairRow u v (fun k => W0 k c)]

end Cert.PairScore

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibLastAxisRows.lean ====
/-
  Row statistics along the LAST axis of a rank-3 vector, at the ideal values, for any extents a, b, c.

  A softmax (or any normalisation with keepdims) over the last axis of an [a, b, c] vector takes a statistic of each
  row (p, q, ·) — its maximum, its sum — as a `vector.multi_reduction` over axis 2 into [a, b], and puts it back
  beside every entry of the row by a `vector.shape_cast` [a, b] → [a, b, 1] followed by a `vector.broadcast`
  [a, b, 1] → [a, b, c]. Read at (p, q, k):
  * `lift_last`: the reduced index (p, q) with coordinate `k` put back on axis 2 is (p, q, k);
  * `multiReduction_add_last`: the `<add>` reduction at (p, q) is `∑ k, src (p, q, k)`;
  * `multiReduction_maximumf_last`: the `<maximumf>` reduction at (p, q) is the fold of `max`, from the accumulator's
    value, over `k ↦ src (p, q, k)`;
  * `keepdims_last`: the cast and the broadcast read, at (p, q, k), the statistic at (p, q) — for `c = 1` too, and
    whatever `a` and `b` are.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.LastAxisRows

open Idealize.ShloMosaic Idealize.ShloMosaic.ValueIdx

variable {a b c : Nat}

/-- The reduced index (p, q) with coordinate `k` put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float `vector.multi_reduction <add>` over the last axis, at (p, q): the sum of the row's entries. -/
theorem multiReduction_add_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float `vector.multi_reduction <maximumf>` over the last axis, at (p, q): the fold of `max` over the row's
    entries, from the accumulator's value. -/
theorem multiReduction_maximumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] (⟨2, ![a, b]⟩ : Shape) src acc h hφ hacc (ix2 p q)
      = (Finset.univ : Finset (Fin c)).fold max (FloatOps.ofBits φ acc) (fun k => src (ix3 p q k)) := by
  refine (Ideal.multiReduction_maximumf_single src acc h hφ hacc (ix2 p q)).trans ?_
  have hf : (src ∘ h.lift (ix2 p q)) = fun k : Fin c => src (ix3 p q k) := funext fun k => congrArg src (lift_last h p q k)
  exact congrArg (fun f => Finset.fold max (FloatOps.ofBits φ acc) f (Finset.univ : Finset (Fin c))) hf

/-- A row statistic put back on its row (keepdims): the cast to a unit last axis and the broadcast along it read, at
    (p, q, k), the statistic at (p, q). -/
theorem keepdims_last {α : Type} (R : (⟨2, ![a, b]⟩ : Shape).Idx → α)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (k : Fin c) :
    broadcastTo (⟨3, ![a, b, c]⟩ : Shape) (shapeCast (⟨3, ![a, b, 1]⟩ : Shape) R h1) h2 (ix3 p q k) = R (ix2 p q) := by
  refine (broadcastTo_apply (shapeCast (⟨3, ![a, b, 1]⟩ : Shape) R h1) h2 (ix3 p q k) (ix3 p q (0 : Fin 1)) ?_).trans ?_
  · intro d
    match d with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => exact (if_pos rfl).symm
  · refine shapeCast_apply R h1 (ix3 p q (0 : Fin 1)) (ix2 p q) ?_
    rw [Shape.rowMajor_val_two, Shape.rowMajor_val_three]
    show p.val * b + q.val = (p.val * b + q.val) * 1 + 0
    omega

end Idealize.ShloMosaic.LastAxisRows

end
-- ==== Proof.KernelBlock.lean ====
/-
  One 128 x 128 tile of pair scores, read entry by entry.

  The body of the tile kernel receives 128 rows of the first projection (x0, one row per residue of the tile's row
  range), 128 rows of the second projection (x1, one per residue of the column range), the first bias x2, the second
  layer's weights x3 and bias x4, the last layer's weights as one row x5 and its bias x6. For the pair (p, q) of the tile
  it forms the 256 first-layer activations max (x0[p, c] + x1[q, c] + x2[c], 0), lays the 128 * 128 pairs out as the rows
  128 p + q of a [16384, 256] matrix, multiplies by x3 into a zero accumulator, adds x4 and takes max with 0, views the
  result as [128, 128, 64] again, multiplies by x5 along the last axis and sums that axis, and adds x6. Entry (p, q) of
  the tile is therefore `score` of the pair's activations (Spec.lean): each layout step moves an entry without changing
  it, the product into the zero accumulator is the plain sum over the 256 activations, the reduction over the last axis
  from the zero word is the plain sum over the 64 hidden units, and a change of float format is the identity on the
  extended reals.
-/
import proofs.«149957_j27058293965309_2_alg».proof.Proof.Gen.KernelIdeal.Skeleton
import proofs.«149957_j27058293965309_2_alg».proof.Proof.Spec
import proofs.«149957_j27058293965309_2_alg».proof.Proof.LibMatmulSum
import proofs.«149957_j27058293965309_2_alg».proof.Proof.LibLastAxisRows
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable {F : FTy → Type} [FloatOps F]

/-! ## The body's value in three stages -/

/-- The first layer of every pair of the tile, one pair per row: row 128 p + q holds max (x0[p, ·] + x1[q, ·] + x2, 0). -/
def acts0 (x0 x1 : FVec F S128x256 .bf16) (x2 : FVec F S256 .f32) : FVec F S16384x256 .bf16 :=
  shapeCast S16384x256
    (maximumf
      (addf
        (addf
          (broadcastTo S128x128x256 (shapeCast S128x1x256 (shapeCast S128x256 x0 shapeCasts_S128x256_S128x256) shapeCasts_S128x256_S128x1x256) broadcasts_S128x1x256_S128x128x256)
          (broadcastTo S128x128x256 (shapeCast S1x128x256 (shapeCast S128x256 x1 shapeCasts_S128x256_S128x256) shapeCasts_S128x256_S1x128x256) broadcasts_S1x128x256_S128x128x256))
        (broadcastTo S128x128x256 (shapeCast S1x1x256 (truncf .bf16 x2 bitsLt_bf16_f32) shapeCasts_S256_S1x1x256) broadcasts_S1x1x256_S128x128x256))
      (broadcast S128x128x256 (Scalar.ofBits .bf16 0x0000#16)))
    shapeCasts_S128x128x256_S16384x256

/-- The second layer of every pair, viewed per pair again: entry (p, q, d) is max (g[128 p + q, ·] · x3[·, d] + x4[d], 0). -/
def acts1 (g : FVec F S16384x256 .bf16) (x3 : FVec F S256x64 .f32) (x4 : FVec F S64 .f32) : FVec F S128x128x64 .f32 :=
  shapeCast S128x128x64
    (maximumf
      (addf
        (matmul dot_S16384x256_S256x64_S16384x64_1_0_0_1_n_n none g (truncf .bf16 x3 bitsLt_bf16_f32) (constant S16384x64 .f32 0x00000000#32))
        (broadcastTo S16384x64 (shapeCast S1x64 x4 shapeCasts_S64_S1x64) broadcasts_S1x64_S16384x64))
      (broadcast S16384x64 (Scalar.ofBits .f32 0x00000000#32)))
    shapeCasts_S16384x64_S128x128x64

/-- The last layer: entry (p, q) is the sum over d of a[p, q, d] * x5[0, d], plus x6[0]. -/
def last (a : FVec F S128x128x64 .f32) (x5 : FVec F S1x64 .f32) (x6 : FVec F S1 .f32) : FVec F S128x128 .f32 :=
  addf
    (multiReduction .add [2] S128x128
      (mulf a (broadcastTo S128x128x64 (shapeCast S1x1x64 (shapeCast S1x64 x5 shapeCasts_S1x64_S1x64) shapeCasts_S1x64_S1x1x64) broadcasts_S1x1x64_S128x128x64))
      0x00000000#32 reduces_S128x128x64_S128x128 (.inl rfl) rfl)
    (broadcastTo S128x128 (shapeCast S1x1 x6 shapeCasts_S1_S1x1) broadcasts_S1x1_S128x128)

/-- The stored value of the body is the three stages composed. -/
theorem pay_eq (x0 x1 : Vec F S128x256 .bf16) (x2 : Vec F S256 .f32) (x3 : Vec F S256x64 .f32) (x4 : Vec F S64 .f32)
    (x5 : Vec F S1x64 .f32) (x6 : Vec F S1 .f32) :
    k0_pay1 x0 x1 x2 x3 x4 x5 x6 = last (acts1 (acts0 x0 x1 x2) x3 x4) x5 x6 := rfl

/-! ## Each stage at an index, on the extended reals -/

/-- The bf16 zero word is the extended real 0. -/
theorem zero_bf16 : Ideal.ofBits .bf16 0x0000#16 = 0 := by simp [Ideal.ofBits, Ideal.ieee]

/-- Row 128 p + q, column c of the first stage: the first-layer activation of the pair (p, q) at feature c. -/
theorem acts0_apply (x0 x1 : FVec Ideal S128x256 .bf16) (x2 : FVec Ideal S256 .f32) (p q : Fin 128) (c : Fin 256) :
    acts0 x0 x1 x2 (ix2 (⟨128 * p.val + q.val, by have := p.isLt; have := q.isLt; omega⟩ : Fin 16384) c)
      = max ((x0 (ix2 p c) + x1 (ix2 q c)) + x2 (ix1 c)) 0 := by
  unfold acts0
  refine (shapeCast_apply _ shapeCasts_S128x128x256_S16384x256 _ (ix3 p q c) ?_).trans ?_
  · rw [Shape.rowMajor_val_three, Shape.rowMajor_val_two]
    show (p.val * 128 + q.val) * 256 + c.val = (128 * p.val + q.val) * 256 + c.val
    omega
  show max ((_ + _) + _) _ = _
  have e0 : broadcastTo S128x128x256 (shapeCast S128x1x256 (shapeCast S128x256 x0 shapeCasts_S128x256_S128x256) shapeCasts_S128x256_S128x1x256) broadcasts_S128x1x256_S128x128x256 (ix3 p q c) = x0 (ix2 p c) := by
    refine (broadcastTo_apply _ broadcasts_S128x1x256_S128x128x256 (ix3 p q c) (ix3 p (0 : Fin 1) c) ?_).trans ?_
    · intro a
      match a with
      | ⟨0, _⟩ => show p.val = if (128 : Nat) = 1 then 0 else p.val; rw [if_neg (by decide)]
      | ⟨1, _⟩ => show (0 : Nat) = if (1 : Nat) = 1 then 0 else q.val; rw [if_pos rfl]
      | ⟨2, _⟩ => show c.val = if (256 : Nat) = 1 then 0 else c.val; rw [if_neg (by decide)]
    refine (shapeCast_apply _ shapeCasts_S128x256_S128x1x256 (ix3 p (0 : Fin 1) c) (ix2 p c) ?_).trans ?_
    · rw [Shape.rowMajor_val_two, Shape.rowMajor_val_three]
      show p.val * 256 + c.val = (p.val * 1 + 0) * 256 + c.val
      omega
    rw [shapeCast_self]
  have e1 : broadcastTo S128x128x256 (shapeCast S1x128x256 (shapeCast S128x256 x1 shapeCasts_S128x256_S128x256) shapeCasts_S128x256_S1x128x256) broadcasts_S1x128x256_S128x128x256 (ix3 p q c) = x1 (ix2 q c) := by
    refine (broadcastTo_apply _ broadcasts_S1x128x256_S128x128x256 (ix3 p q c) (ix3 (0 : Fin 1) q c) ?_).trans ?_
    · intro a
      match a with
      | ⟨0, _⟩ => show (0 : Nat) = if (1 : Nat) = 1 then 0 else p.val; rw [if_pos rfl]
      | ⟨1, _⟩ => show q.val = if (128 : Nat) = 1 then 0 else q.val; rw [if_neg (by decide)]
      | ⟨2, _⟩ => show c.val = if (256 : Nat) = 1 then 0 else c.val; rw [if_neg (by decide)]
    refine (shapeCast_apply _ shapeCasts_S128x256_S1x128x256 (ix3 (0 : Fin 1) q c) (ix2 q c) ?_).trans ?_
    · rw [Shape.rowMajor_val_two, Shape.rowMajor_val_three]
      show q.val * 256 + c.val = (0 * 128 + q.val) * 256 + c.val
      omega
    rw [shapeCast_self]
  have e2 : broadcastTo S128x128x256 (shapeCast S1x1x256 (truncf .bf16 x2 bitsLt_bf16_f32) shapeCasts_S256_S1x1x256) broadcasts_S1x1x256_S128x128x256 (ix3 p q c) = x2 (ix1 c) := by
    refine (broadcastTo_apply _ broadcasts_S1x1x256_S128x128x256 (ix3 p q c) (ix3 (0 : Fin 1) (0 : Fin 1) c) ?_).trans ?_
    · intro a
      match a with
      | ⟨0, _⟩ => show (0 : Nat) = if (1 : Nat) = 1 then 0 else p.val; rw [if_pos rfl]
      | ⟨1, _⟩ => show (0 : Nat) = if (1 : Nat) = 1 then 0 else q.val; rw [if_pos rfl]
      | ⟨2, _⟩ => show c.val = if (256 : Nat) = 1 then 0 else c.val; rw [if_neg (by decide)]
    refine (shapeCast_apply _ shapeCasts_S256_S1x1x256 (ix3 (0 : Fin 1) (0 : Fin 1) c) (ix1 c) ?_).trans ?_
    · rw [Shape.rowMajor_val_one, Shape.rowMajor_val_three]
      show c.val = (0 * 1 + 0) * 256 + c.val
      omega
    rfl
  rw [e0, e1, e2]
  show max _ (Ideal.ofBits .bf16 0x0000#16) = _
  rw [zero_bf16]

/-! ### The second layer: a plain [16384, 256] x [256, 64] product -/

/-- The left operand's index at output (r, d) and contraction position k is (r, k). -/
theorem lhs_idx (r : Fin 16384) (d : Fin 64) (k : Fin 256) :
    dot_S16384x256_S256x64_S16384x64_1_0_0_1_n_n.lhsIdx (ix2 r d)
      ((contrEquiv1 dot_S16384x256_S256x64_S16384x64_1_0_0_1_n_n 256 rfl rfl).symm k) = ix2 r k := by
  have hk := contrEquiv1_symm_val dot_S16384x256_S256x64_S16384x64_1_0_0_1_n_n 256 rfl rfl k
  funext a
  apply Fin.ext
  match a with
  | ⟨0, _⟩ =>
    show (dot_S16384x256_S256x64_S16384x64_1_0_0_1_n_n.lhsIdx (ix2 r d) _ 0).val = r.val
    unfold DotDims.lhsIdx
    rw [dif_neg (show ¬(0 : Fin S16384x256.rank) ∈ dot_S16384x256_S256x64_S16384x64_1_0_0_1_n_n.lhsBatch by decide), dif_pos (show (0 : Fin S16384x256.rank) ∈ dot_S16384x256_S256x64_S16384x64_1_0_0_1_n_n.lhsNonContracting by decide)]
    rfl
  | ⟨1, _⟩ =>
    exact (dot_S16384x256_S256x64_S16384x64_1_0_0_1_n_n.lhsIdx_val_of_single rfl (ix2 r d) _).trans hk

/-- The right operand's index at output (r, d) and contraction position k is (k, d). -/
theorem rhs_idx (r : Fin 16384) (d : Fin 64) (k : Fin 256) :
    dot_S16384x256_S256x64_S16384x64_1_0_0_1_n_n.rhsIdx (ix2 r d)
      ((contrEquiv1 dot_S16384x256_S256x64_S16384x64_1_0_0_1_n_n 256 rfl rfl).symm k) = ix2 k d := by
  have hk := contrEquiv1_symm_val dot_S16384x256_S256x64_S16384x64_1_0_0_1_n_n 256 rfl rfl k
  funext a
  apply Fin.ext
  match a with
  | ⟨0, _⟩ =>
    exact (dot_S16384x256_S256x64_S16384x64_1_0_0_1_n_n.rhsIdx_val_of_single rfl (ix2 r d) _).trans hk
  | ⟨1, _⟩ =>
    show (dot_S16384x256_S256x64_S16384x64_1_0_0_1_n_n.rhsIdx (ix2 r d) _ 1).val = d.val
    unfold DotDims.rhsIdx
    rw [dif_neg (show ¬(1 : Fin S256x64.rank) ∈ dot_S16384x256_S256x64_S16384x64_1_0_0_1_n_n.rhsBatch by decide), dif_pos (show (1 : Fin S256x64.rank) ∈ dot_S16384x256_S256x64_S16384x64_1_0_0_1_n_n.rhsNonContracting by decide)]
    rfl

/-- Entry (p, q, d) of the second stage: the pair's row of first-layer activations against column d of the weights,
    plus the bias, clipped at 0. -/
theorem acts1_apply (g : FVec Ideal S16384x256 .bf16) (x3 : FVec Ideal S256x64 .f32) (x4 : FVec Ideal S64 .f32)
    (p q : Fin 128) (d : Fin 64) :
    acts1 g x3 x4 (ix3 p q d)
      = max ((∑ c : Fin 256, g (ix2 (⟨128 * p.val + q.val, by have := p.isLt; have := q.isLt; omega⟩ : Fin 16384) c) * x3 (ix2 c d)) + x4 (ix1 d)) 0 := by
  unfold acts1
  refine (shapeCast_apply _ shapeCasts_S16384x64_S128x128x64 (ix3 p q d)
    (ix2 (⟨128 * p.val + q.val, by have := p.isLt; have := q.isLt; omega⟩ : Fin 16384) d) ?_).trans ?_
  · rw [Shape.rowMajor_val_two, Shape.rowMajor_val_three]
    show (128 * p.val + q.val) * 64 + d.val = (p.val * 128 + q.val) * 64 + d.val
    omega
  show max (_ + _) _ = _
  have em : matmul dot_S16384x256_S256x64_S16384x64_1_0_0_1_n_n none g (truncf .bf16 x3 bitsLt_bf16_f32) (constant S16384x64 .f32 0x00000000#32)
        (ix2 (⟨128 * p.val + q.val, by have := p.isLt; have := q.isLt; omega⟩ : Fin 16384) d)
      = ∑ c : Fin 256, g (ix2 (⟨128 * p.val + q.val, by have := p.isLt; have := q.isLt; omega⟩ : Fin 16384) c) * x3 (ix2 c d) :=
    Idealize.ShloMosaic.MatmulSum.matmul_zero_apply_single dot_S16384x256_S256x64_S16384x64_1_0_0_1_n_n none 256 rfl rfl
    g (truncf .bf16 x3 bitsLt_bf16_f32 : FVec Ideal S256x64 .bf16)
    (ix2 (⟨128 * p.val + q.val, by have := p.isLt; have := q.isLt; omega⟩ : Fin 16384) d)
    (fun k => ix2 (⟨128 * p.val + q.val, by have := p.isLt; have := q.isLt; omega⟩ : Fin 16384) k) (fun k => ix2 k d)
    (fun k => lhs_idx _ d k) (fun k => rhs_idx _ d k)
  have eb : broadcastTo S16384x64 (shapeCast S1x64 x4 shapeCasts_S64_S1x64) broadcasts_S1x64_S16384x64
      (ix2 (⟨128 * p.val + q.val, by have := p.isLt; have := q.isLt; omega⟩ : Fin 16384) d) = x4 (ix1 d) := by
    refine (broadcastTo_apply _ broadcasts_S1x64_S16384x64 _ (ix2 (0 : Fin 1) d) ?_).trans ?_
    · intro a
      match a with
      | ⟨0, _⟩ => show (0 : Nat) = if (1 : Nat) = 1 then 0 else 128 * p.val + q.val; rw [if_pos rfl]
      | ⟨1, _⟩ => show d.val = if (64 : Nat) = 1 then 0 else d.val; rw [if_neg (by decide)]
    refine (shapeCast_apply _ shapeCasts_S64_S1x64 (ix2 (0 : Fin 1) d) (ix1 d) ?_).trans rfl
    rw [Shape.rowMajor_val_one, Shape.rowMajor_val_two]
    show d.val = 0 * 64 + d.val
    omega
  rw [em, eb]
  show max _ (Ideal.ofBits .f32 0x00000000#32) = _
  rw [Ideal.ofBits_zero_f32]

/-! ### The last layer: a sum over the hidden units -/

/-- Entry (p, q) of the tile: the pair's second-layer activations against the last layer's weights, plus its bias. -/
theorem last_apply (a : FVec Ideal S128x128x64 .f32) (x5 : FVec Ideal S1x64 .f32) (x6 : FVec Ideal S1 .f32) (p q : Fin 128) :
    last a x5 x6 (ix2 p q) = (∑ d : Fin 64, a (ix3 p q d) * x5 (ix2 (0 : Fin 1) d)) + x6 (ix1 (0 : Fin 1)) := by
  unfold last
  show _ + _ = _
  have er := Idealize.ShloMosaic.LastAxisRows.multiReduction_add_last (a := 128) (b := 128) (c := 64)
    (mulf a (broadcastTo S128x128x64 (shapeCast S1x1x64 (shapeCast S1x64 x5 shapeCasts_S1x64_S1x64) shapeCasts_S1x64_S1x1x64) broadcasts_S1x1x64_S128x128x64))
    0x00000000#32 reduces_S128x128x64_S128x128 (.inl rfl) rfl p q
  have ew : ∀ d : Fin 64, broadcastTo S128x128x64 (shapeCast S1x1x64 (shapeCast S1x64 x5 shapeCasts_S1x64_S1x64) shapeCasts_S1x64_S1x1x64) broadcasts_S1x1x64_S128x128x64 (ix3 p q d)
      = x5 (ix2 (0 : Fin 1) d) := fun d => by
    refine (broadcastTo_apply _ broadcasts_S1x1x64_S128x128x64 (ix3 p q d) (ix3 (0 : Fin 1) (0 : Fin 1) d) ?_).trans ?_
    · intro b
      match b with
      | ⟨0, _⟩ => show (0 : Nat) = if (1 : Nat) = 1 then 0 else p.val; rw [if_pos rfl]
      | ⟨1, _⟩ => show (0 : Nat) = if (1 : Nat) = 1 then 0 else q.val; rw [if_pos rfl]
      | ⟨2, _⟩ => show d.val = if (64 : Nat) = 1 then 0 else d.val; rw [if_neg (by decide)]
    refine (shapeCast_apply _ shapeCasts_S1x64_S1x1x64 (ix3 (0 : Fin 1) (0 : Fin 1) d) (ix2 (0 : Fin 1) d) ?_).trans ?_
    · rw [Shape.rowMajor_val_two, Shape.rowMajor_val_three]
      show 0 * 64 + d.val = (0 * 1 + 0) * 64 + d.val
      omega
    rw [shapeCast_self]
  have eb : broadcastTo S128x128 (shapeCast S1x1 x6 shapeCasts_S1_S1x1) broadcasts_S1x1_S128x128 (ix2 p q) = x6 (ix1 (0 : Fin 1)) := by
    refine (broadcastTo_apply _ broadcasts_S1x1_S128x128 (ix2 p q) (ix2 (0 : Fin 1) (0 : Fin 1)) ?_).trans ?_
    · intro b
      match b with
      | ⟨0, _⟩ => show (0 : Nat) = if (1 : Nat) = 1 then 0 else p.val; rw [if_pos rfl]
      | ⟨1, _⟩ => show (0 : Nat) = if (1 : Nat) = 1 then 0 else q.val; rw [if_pos rfl]
    refine (shapeCast_apply _ shapeCasts_S1_S1x1 (ix2 (0 : Fin 1) (0 : Fin 1)) (ix1 (0 : Fin 1)) ?_).trans rfl
    rw [Shape.rowMajor_val_one, Shape.rowMajor_val_two]
    rfl
  rw [eb]
  refine congrArg (· + x6 (ix1 (0 : Fin 1))) (er.trans (Finset.sum_congr rfl fun d _ => ?_))
  show a (ix3 p q d) * _ = _
  rw [ew d]

/-! ### The tile's entry -/

/-- Entry (p, q) of what the body stores is the score of the pair whose first-layer activations are
    max (x0[p, c] + x1[q, c] + x2[c], 0). -/
theorem pay_apply (x0 x1 : Vec Ideal S128x256 .bf16) (x2 : Vec Ideal S256 .f32) (x3 : Vec Ideal S256x64 .f32) (x4 : Vec Ideal S64 .f32)
    (x5 : Vec Ideal S1x64 .f32) (x6 : Vec Ideal S1 .f32) (p q : Fin 128) :
    k0_pay1 (F := Ideal) x0 x1 x2 x3 x4 x5 x6 (ix2 p q)
      = Cert.PairScore.score (fun c : Fin 256 => max ((x0 (ix2 p c) + x1 (ix2 q c)) + x2 (ix1 c)) 0)
          (fun (c : Fin 256) (d : Fin 64) => x3 (ix2 c d)) (fun d : Fin 64 => x4 (ix1 d))
          (fun d : Fin 64 => x5 (ix2 (0 : Fin 1) d)) (x6 (ix1 (0 : Fin 1))) := by
  rw [pay_eq, last_apply]
  unfold Cert.PairScore.score
  refine congrArg (· + x6 (ix1 (0 : Fin 1))) (Finset.sum_congr rfl fun d _ => ?_)
  rw [acts1_apply]
  refine congrArg (fun z => max (z + x4 (ix1 d)) 0 * x5 (ix2 (0 : Fin 1) d)) (Finset.sum_congr rfl fun c _ => ?_)
  rw [acts0_apply]

end Cert.KernelIdeal.Tile

end
-- ==== Proof.KernelArray.lean ====
/-
  The whole 896 x 896 table of pair scores the tile kernel leaves, as one function of the arrays it is launched on.

  The grid is 7 x 7. At point (t0, t1) the kernel reads rows 128 t0 … 128 t0 + 127 of the first projection, rows
  128 t1 … 128 t1 + 127 of the second, and the five small operands whole, and writes the 128 x 128 tile at
  (128 t0, 128 t1). Entry (r, s) of the table is therefore the score (Spec.lean) of the pair whose first-layer
  activations are max (A[r, c] + B[s, c] + b0[c], 0): the tile entry (KernelBlock.lean) read where the tile sits. The
  49 tiles cover the table — (r, s) lies in the tile of point (r / 128, s / 128) — so the array ends as that function.
-/
import proofs.«149957_j27058293965309_2_alg».proof.Proof.Gen.KernelIdeal.Frame
import proofs.«149957_j27058293965309_2_alg».proof.Proof.KernelBlock
import Idealize.ShloMosaic.Lib.Pipeline.Value
import Idealize.ShloMosaic.Lib.ValueIdx

set_option maxRecDepth 16384

noncomputable section

namespace Cert.KernelIdeal.Table

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The table of scores from the two projected feature tables `A`, `B` (one row per residue) and the remaining
    layers' parameters: entry (r, s) scores the pair of row r of `A` and row s of `B`. -/
def table (A B : S896x256.Idx → EReal) (b0 : S256.Idx → EReal) (W1 : S256x64.Idx → EReal) (b1 : S64.Idx → EReal)
    (w2 : S1x64.Idx → EReal) (b2 : S1.Idx → EReal) : S896x896.Idx → EReal := fun i =>
  Cert.PairScore.score
    (fun c : Fin 256 => max ((A (ix2 (⟨(i 0).val, (i 0).isLt⟩ : Fin 896) c) + B (ix2 (⟨(i 1).val, (i 1).isLt⟩ : Fin 896) c)) + b0 (ix1 c)) 0)
    (fun (c : Fin 256) (d : Fin 64) => W1 (ix2 c d)) (fun d : Fin 64 => b1 (ix1 d))
    (fun d : Fin 64 => w2 (ix2 (0 : Fin 1) d)) (b2 (ix1 (0 : Fin 1)))

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the first projection's block follows the tile's row index, the second's the tile's
    column index, every other operand is read whole, and the tile indices stay below 7. -/
theorem idx_facts : ∀ t : Fin cfg0.N, win0_0.index t (0 : Fin 2) = win0_7.index t (0 : Fin 2)
    ∧ win0_0.index t (1 : Fin 2) = 0
    ∧ win0_1.index t (0 : Fin 2) = win0_7.index t (1 : Fin 2)
    ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 6 ∧ win0_7.index t (1 : Fin 2) ≤ 6 :=
  (by decide +kernel : ∀ t : Fin grid0.N, _)

/-- Every tile position is some grid point's. -/
theorem idx_onto : ∀ (q0 q1 : Fin 7), ∃ t : Fin cfg0.N, win0_7.index t = ![q0.val, q1.val] :=
  (by decide +kernel : ∀ (q0 q1 : Fin 7), ∃ t : Fin grid0.N, win0_7.index t = ![q0.val, q1.val])

/-! ## Each operand's block at a point, read where the tile sits -/

/-- Row p of the first projection's block at point `t` is row `r` of the array, `r` the tile's row offset plus p. -/
theorem blk0 (c : Dev nD) (t : Fin cfg0.N) (p : Fin 128) (cc : Fin 256) (r : Fin 896)
    (hr : r.val = win0_7.index t (0 : Fin 2) * 128 + 1 * p.val) :
    iblk m c 0 t (ix2 p cc) = V m c main_v111 (ix2 r cc) := by
  obtain ⟨e00, e01, -⟩ := idx_facts t
  show V m c main_v111 (((cfg0.win 0).blk t).view.emb (ix2 p cc)) = _
  refine congrArg (V m c main_v111) (funext fun a => Fin.ext ?_)
  match a with
  | ⟨0, _⟩ => show win0_0.index t (0 : Fin 2) * 128 + 1 * p.val = r.val; omega
  | ⟨1, _⟩ => show win0_0.index t (1 : Fin 2) * 256 + 1 * cc.val = cc.val; omega

/-- Row q of the second projection's block at point `t` is row `s` of the array, `s` the tile's column offset plus q. -/
theorem blk1 (c : Dev nD) (t : Fin cfg0.N) (q : Fin 128) (cc : Fin 256) (s : Fin 896)
    (hs : s.val = win0_7.index t (1 : Fin 2) * 128 + 1 * q.val) :
    iblk m c 1 t (ix2 q cc) = V m c main_v115 (ix2 s cc) := by
  obtain ⟨-, -, e10, e11, -⟩ := idx_facts t
  show V m c main_v115 (((cfg0.win 1).blk t).view.emb (ix2 q cc)) = _
  refine congrArg (V m c main_v115) (funext fun a => Fin.ext ?_)
  match a with
  | ⟨0, _⟩ => show win0_1.index t (0 : Fin 2) * 128 + 1 * q.val = s.val; omega
  | ⟨1, _⟩ => show win0_1.index t (1 : Fin 2) * 256 + 1 * cc.val = cc.val; omega

/-- The first bias is read whole at every point. -/
theorem blk2 (c : Dev nD) (t : Fin cfg0.N) (cc : Fin 256) : iblk m c 2 t (ix1 cc) = V m c main_arg9 (ix1 cc) := by
  obtain ⟨-, -, -, -, e2, -⟩ := idx_facts t
  show V m c main_arg9 (((cfg0.win 2).blk t).view.emb (ix1 cc)) = _
  refine congrArg (V m c main_arg9) (funext fun a => Fin.ext ?_)
  match a with
  | ⟨0, _⟩ => show win0_2.index t (0 : Fin 1) * 256 + 1 * cc.val = cc.val; omega

/-- The second layer's weights are read whole at every point. -/
theorem blk3 (c : Dev nD) (t : Fin cfg0.N) (cc : Fin 256) (d : Fin 64) : iblk m c 3 t (ix2 cc d) = V m c main_arg10 (ix2 cc d) := by
  obtain ⟨-, -, -, -, -, e30, e31, -⟩ := idx_facts t
  show V m c main_arg10 (((cfg0.win 3).blk t).view.emb (ix2 cc d)) = _
  refine congrArg (V m c main_arg10) (funext fun a => Fin.ext ?_)
  match a with
  | ⟨0, _⟩ => show win0_3.index t (0 : Fin 2) * 256 + 1 * cc.val = cc.val; omega
  | ⟨1, _⟩ => show win0_3.index t (1 : Fin 2) * 64 + 1 * d.val = d.val; omega

/-- The second bias is read whole at every point. -/
theorem blk4 (c : Dev nD) (t : Fin cfg0.N) (d : Fin 64) : iblk m c 4 t (ix1 d) = V m c main_arg11 (ix1 d) := by
  obtain ⟨-, -, -, -, -, -, -, e4, -⟩ := idx_facts t
  show V m c main_arg11 (((cfg0.win 4).blk t).view.emb (ix1 d)) = _
  refine congrArg (V m c main_arg11) (funext fun a => Fin.ext ?_)
  match a with
  | ⟨0, _⟩ => show win0_4.index t (0 : Fin 1) * 64 + 1 * d.val = d.val; omega

/-- The last layer's weights, as one row, are read whole at every point. -/
theorem blk5 (c : Dev nD) (t : Fin cfg0.N) (d : Fin 64) : iblk m c 5 t (ix2 (0 : Fin 1) d) = V m c main_v116 (ix2 (0 : Fin 1) d) := by
  obtain ⟨-, -, -, -, -, -, -, -, e50, e51, -⟩ := idx_facts t
  show V m c main_v116 (((cfg0.win 5).blk t).view.emb (ix2 (0 : Fin 1) d)) = _
  refine congrArg (V m c main_v116) (funext fun a => Fin.ext ?_)
  match a with
  | ⟨0, _⟩ => show win0_5.index t (0 : Fin 2) * 1 + 1 * 0 = 0; omega
  | ⟨1, _⟩ => show win0_5.index t (1 : Fin 2) * 64 + 1 * d.val = d.val; omega

/-- The last bias is read whole at every point. -/
theorem blk6 (c : Dev nD) (t : Fin cfg0.N) : iblk m c 6 t (ix1 (0 : Fin 1)) = V m c main_arg13 (ix1 (0 : Fin 1)) := by
  obtain ⟨-, -, -, -, -, -, -, -, -, -, e6, -⟩ := idx_facts t
  show V m c main_arg13 (((cfg0.win 6).blk t).view.emb (ix1 (0 : Fin 1))) = _
  refine congrArg (V m c main_arg13) (funext fun a => Fin.ext ?_)
  match a with
  | ⟨0, _⟩ => show win0_6.index t (0 : Fin 1) * 1 + 1 * 0 = 0; omega

/-! ## From the tiles to the table -/

/-- What point `t` writes back is tile `t` of the table of the arrays as the region finds them. -/
theorem flushed_eq (c : Dev nD) (t : Fin cfg0.N) :
    (dats m 0 c).flushed 7 t = ((cfg0.win 7).blk t).view.read (Elt Ideal)
      (table (V m c main_v111) (V m c main_v115) (V m c main_arg9) (V m c main_arg10) (V m c main_arg11) (V m c main_v116) (V m c main_arg13)) := by
  show (cfg0.win 7).cut (grid0.coords t) ((dats m 0 c).after 7 t) = _
  rw [after0_7]
  unfold out0_7
  rw [View.canon_unit_zero zero2]
  simp only [View.ld_unit_zero (S := S128x256) zero2, View.ld_unit_zero (S := S256) zero1, View.ld_unit_zero (S := S256x64) zero2,
    View.ld_unit_zero (S := S64) zero1, View.ld_unit_zero (S := S1x64) zero2, View.ld_unit_zero (S := S1) zero1]
  funext j
  obtain ⟨p, q, rfl⟩ : ∃ (p q : Fin 128), j = ix2 p q := ⟨j 0, j 1, eq_ix2 j⟩
  refine (Cert.KernelIdeal.Tile.pay_apply (iblk m c 0 t) (iblk m c 1 t) (iblk m c 2 t) (iblk m c 3 t) (iblk m c 4 t) (iblk m c 5 t) (iblk m c 6 t) p q).trans ?_
  show _ = table (V m c main_v111) (V m c main_v115) (V m c main_arg9) (V m c main_arg10) (V m c main_arg11) (V m c main_v116) (V m c main_arg13)
    (((cfg0.win 7).blk t).view.emb (ix2 p q))
  unfold table
  refine congr (congr (congr (congr (congrArg Cert.PairScore.score (funext fun cc => ?_)) (funext fun cc => funext fun d => ?_)) (funext fun d => ?_)) (funext fun d => ?_)) ?_
  · have a0 := blk0 m c t p cc (⟨((((cfg0.win 7).blk t).view.emb (ix2 p q)) 0).val, ((((cfg0.win 7).blk t).view.emb (ix2 p q)) 0).isLt⟩ : Fin 896) rfl
    have a1 := blk1 m c t q cc (⟨((((cfg0.win 7).blk t).view.emb (ix2 p q)) 1).val, ((((cfg0.win 7).blk t).view.emb (ix2 p q)) 1).isLt⟩ : Fin 896) rfl
    have a2 := blk2 m c t cc
    rw [a0, a1, a2]
  · exact blk3 m c t cc d
  · exact blk4 m c t d
  · exact blk5 m c t d
  · exact blk6 m c t

/-- An index of the table is in point `t`'s tile iff each coordinate is in the tile's range on its axis. -/
theorem mem_blk (t : Fin cfg0.N) (i : S896x896.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v117).slice (win0_7.rect t)).set ↔ _
  rw [View.set_slice_whole, Rect.mem_set_unit]
  exact Iff.rfl

/-- The tiles cover the table: (r, s) lies in the tile of the point whose tile indices are (r / 128, s / 128). -/
theorem cover (i : S896x896.Idx) : ∃ t : Fin cfg0.N, (cfg0.win 7).flush t = true ∧ i ∈ ((cfg0.win 7).blk t).view.set := by
  have hi0 : (i 0).val < 896 := (i 0).isLt
  have hi1 : (i 1).val < 896 := (i 1).isLt
  obtain ⟨t, ht⟩ := idx_onto ⟨(i 0).val / 128, by omega⟩ ⟨(i 1).val / 128, by omega⟩
  have q0 : win0_7.index t (0 : Fin 2) = (i 0).val / 128 := congrFun ht 0
  have q1 : win0_7.index t (1 : Fin 2) = (i 1).val / 128 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 128 ≤ (i 1).val ∧ (i 1).val < win0_7.index t (1 : Fin 2) * 128 + 128; omega

/-- The array after the run is the table of the arrays as the region finds them. -/
theorem final (c : Dev nD) : (dats m 0 c).arrAt 7 cfg0.N
    = table (V m c main_v111) (V m c main_v115) (V m c main_arg9) (V m c main_arg10) (V m c main_arg11) (V m c main_v116) (V m c main_arg13) :=
  (dats m 0 c).arrAt_eq_of_cover 7 _ (fun t _ => flushed_eq m c t) cover

end Cert.KernelIdeal.Table

end
-- ==== Proof.KernelHost.lean ====
/-
  The host side of the pair-scoring program: what the buffers hold when the region is entered, and what the host
  operations after the region make of the region's output.

  Both residue tables come out of the same two-layer graph networks as in the plain program: operation for
  operation the same terms of the arguments (`head1`, `head2`). Each table is padded below with 96 rows of the
  converted integer zero to 896 rows, cut to half precision, contracted against its own half of the first layer's
  weight matrix (rows 0 .. 127 for the first table, rows 128 .. 255 for the second), and cut again
  (`projA_term`, `projB_term`). At the ideal values the cuts change nothing, and a row below 800 of the padded
  table is the table's row, so entry (r, c') of the product with r < 800 is the sum over k < 128 of the table's
  entry (r, k) times the weight at (k, c'), respectively (128 + k, c') (`projA_apply`, `projB_apply`). The last
  layer's weights, a column of 64, enter the region as a row (`w2_apply`). After the region the result is the
  leading 800 x 800 corner of the region's 896 x 896 output, read row by row as 640000 entries: entry n is the
  output's entry (n / 800, n % 800) (`tail_apply`).
-/
import proofs.«149957_j27058293965309_2_alg».proof.Proof.Gen.KernelIdeal.Frame
import proofs.«149957_j27058293965309_2_alg».proof.Proof.RefRead
import proofs.«149957_j27058293965309_2_alg».proof.Proof.LibMatmulSum
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx Idealize.ShloMosaic.StableHlo

variable {F : FTy → Type} [FloatOps F]

/-! ## The host operations before the region, in two stretches -/

/-- Running two lists of host operations one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The buffers' contents once both feature networks have run, before the padding and the first layer's products. -/
def afterNets (m : (ℓ : Loc nD τ sig) → Buf (Elt F) ℓ) (c : Dev nD) : Valuation τ sig (Elt F) :=
  StableHlo.after (List.flatten [hostOps0, hostOps0_1, hostOps0_2, hostOps0_3, hostOps0_4, hostOps0_5, hostOps0_6, hostOps0_7]) (fun b => m (c, b))

/-- The contents at the region's entry are those after the networks, followed by the remaining host operations. -/
theorem V0_eq (m : (ℓ : Loc nD τ sig) → Buf (Elt F) ℓ) (c : Dev nD) :
    V0 m c = StableHlo.after (List.flatten [hostOps0_8, hostOps0_9, hostOps0_10, hostOps0_11, hostOps0_12]) (afterNets m c) := by
  show StableHlo.after (List.flatten ([hostOps0, hostOps0_1, hostOps0_2, hostOps0_3, hostOps0_4, hostOps0_5, hostOps0_6, hostOps0_7] ++ [hostOps0_8, hostOps0_9, hostOps0_10, hostOps0_11, hostOps0_12])) _ = _
  rw [List.flatten_append, after_append]
  rfl

theorem projA_term1 (m : (ℓ : Loc nD τ sig) → Buf (Elt F) ℓ) (c : Dev nD) :
    V m c main_v111 = truncf .bf16 (Host.dotGeneral dot_S896x128_S128x256_S896x256_1_0_0_1_n_n none
        (truncf .bf16 (pad S896x128 ![0, 0] ![96, 0] ![0, 0] (afterNets m c (Proc.devRef .tc main_v51)) (sitofp .f32 (constantI S_ 32 0#32) : FVec F S_ .f32) pads_S800x128_S896x128_0960_000 h_S_) bitsLt_bf16_f32)
        (truncf .bf16 (extractStridedSlice S128x256 ![0, 0] (afterNets m c (Proc.devRef .tc main_arg8)) slices_S256x256_S128x256_0_0) bitsLt_bf16_f32)) bitsLt_bf16_f32 := by
  show V0 m c (Proc.devRef .tc main_v111) = _
  rw [V0_eq]
  simp only [Gen.hostOps0_8, Gen.hostOps0_9, Gen.hostOps0_10, Gen.hostOps0_11, Gen.hostOps0_12, List.flatten_cons, List.flatten_nil, List.append_nil, List.cons_append, List.nil_append]
  after_results
  rfl

/-- The first residue table: the first two-layer graph network applied to the first protein's inputs. -/
abbrev X1 (m : (ℓ : Loc nD τ sig) → Buf (Elt F) ℓ) (c : Dev nD) : (⟨S800x128, .f32⟩ : BufTy).Contents (Elt F) :=
  Cert.ReferenceIdeal.ReadP.val_main_v51 (F := F) (m ((c : Thread nD τ).loc main_arg0)) (m ((c : Thread nD τ).loc main_arg1))
    (m ((c : Thread nD τ).loc main_arg4)) (m ((c : Thread nD τ).loc main_arg5)) (m ((c : Thread nD τ).loc main_arg6)) (m ((c : Thread nD τ).loc main_arg7))

/-- The second residue table: the same network applied to the second protein's inputs. -/
abbrev X2 (m : (ℓ : Loc nD τ sig) → Buf (Elt F) ℓ) (c : Dev nD) : (⟨S800x128, .f32⟩ : BufTy).Contents (Elt F) :=
  Cert.ReferenceIdeal.ReadP.val_main_v103 (F := F) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ## The two residue tables are the plain program's -/

/-- After the networks the first table's buffer holds the plain program's first table: the same operations on the
    same arguments. -/
theorem afterNets_v51 (m : (ℓ : Loc nD τ sig) → Buf (Elt F) ℓ) (c : Dev nD) :
    afterNets m c (Proc.devRef .tc main_v51) = X1 m c := by
  unfold afterNets
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

set_option maxHeartbeats 1000000 in
/-- And the second table's buffer holds the plain program's second table. -/
theorem afterNets_v103 (m : (ℓ : Loc nD τ sig) → Buf (Elt F) ℓ) (c : Dev nD) :
    afterNets m c (Proc.devRef .tc main_v103) = X2 m c := by
  unfold afterNets
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

/-- The first layer's weights are an argument no host operation writes. -/
theorem afterNets_arg8 (m : (ℓ : Loc nD τ sig) → Buf (Elt F) ℓ) (c : Dev nD) :
    afterNets m c (Proc.devRef .tc main_arg8) = m ((c : Thread nD τ).loc main_arg8) := by
  unfold afterNets
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp

/-- The padding and the products leave the first network's table as it was. -/
theorem V_v51 (m : (ℓ : Loc nD τ sig) → Buf (Elt F) ℓ) (c : Dev nD) :
    V m c main_v51 = afterNets m c (Proc.devRef .tc main_v51) := by
  show V0 m c (Proc.devRef .tc main_v51) = _
  rw [V0_eq]
  simp only [Gen.hostOps0_8, Gen.hostOps0_9, Gen.hostOps0_10, Gen.hostOps0_11, Gen.hostOps0_12, List.flatten_cons, List.flatten_nil, List.append_nil, List.cons_append, List.nil_append]
  after_results

/-- The padding and the products leave the second network's table as it was. -/
theorem V_v103 (m : (ℓ : Loc nD τ sig) → Buf (Elt F) ℓ) (c : Dev nD) :
    V m c main_v103 = afterNets m c (Proc.devRef .tc main_v103) := by
  show V0 m c (Proc.devRef .tc main_v103) = _
  rw [V0_eq]
  simp only [Gen.hostOps0_8, Gen.hostOps0_9, Gen.hostOps0_10, Gen.hostOps0_11, Gen.hostOps0_12, List.flatten_cons, List.flatten_nil, List.append_nil, List.cons_append, List.nil_append]
  after_results

theorem projB_term1 (m : (ℓ : Loc nD τ sig) → Buf (Elt F) ℓ) (c : Dev nD) :
    V m c main_v115 = truncf .bf16 (Host.dotGeneral dot_S896x128_S128x256_S896x256_1_0_0_1_n_n none
        (truncf .bf16 (pad S896x128 ![0, 0] ![96, 0] ![0, 0] (afterNets m c (Proc.devRef .tc main_v103)) (sitofp .f32 (constantI S_ 32 0#32) : FVec F S_ .f32) pads_S800x128_S896x128_0960_000 h_S_) bitsLt_bf16_f32)
        (truncf .bf16 (extractStridedSlice S128x256 ![128, 0] (afterNets m c (Proc.devRef .tc main_arg8)) slices_S256x256_S128x256_128_0) bitsLt_bf16_f32)) bitsLt_bf16_f32 := by
  show V0 m c (Proc.devRef .tc main_v115) = _
  rw [V0_eq]
  simp only [Gen.hostOps0_8, Gen.hostOps0_9, Gen.hostOps0_10, Gen.hostOps0_11, Gen.hostOps0_12, List.flatten_cons, List.flatten_nil, List.append_nil, List.cons_append, List.nil_append]
  after_results
  rfl

/-- At the region's entry the first table is the plain program's. -/
theorem head1 (m : (ℓ : Loc nD τ sig) → Buf (Elt F) ℓ) (c : Dev nD) : V m c main_v51 = X1 m c :=
  (V_v51 m c).trans (afterNets_v51 m c)

/-- At the region's entry the second table is the plain program's. -/
theorem head2 (m : (ℓ : Loc nD τ sig) → Buf (Elt F) ℓ) (c : Dev nD) : V m c main_v103 = X2 m c :=
  (V_v103 m c).trans (afterNets_v103 m c)

/-! ## The first layer's two products, as terms -/

/-- The first table padded to 896 rows, against rows 0 .. 127 of the first layer's weights, with the three cuts to half precision. -/
theorem projA_term (m : (ℓ : Loc nD τ sig) → Buf (Elt F) ℓ) (c : Dev nD) :
    V m c main_v111 = truncf .bf16 (Host.dotGeneral dot_S896x128_S128x256_S896x256_1_0_0_1_n_n none
        (truncf .bf16 (pad S896x128 ![0, 0] ![96, 0] ![0, 0] (X1 m c) (sitofp .f32 (constantI S_ 32 0#32) : FVec F S_ .f32) pads_S800x128_S896x128_0960_000 h_S_) bitsLt_bf16_f32)
        (truncf .bf16 (extractStridedSlice S128x256 ![0, 0] (m ((c : Thread nD τ).loc main_arg8)) slices_S256x256_S128x256_0_0) bitsLt_bf16_f32)) bitsLt_bf16_f32 := by
  rw [projA_term1, afterNets_v51, afterNets_arg8]

/-- The second table padded to 896 rows, against rows 128 .. 255 of the first layer's weights, with the three cuts to half precision. -/
theorem projB_term (m : (ℓ : Loc nD τ sig) → Buf (Elt F) ℓ) (c : Dev nD) :
    V m c main_v115 = truncf .bf16 (Host.dotGeneral dot_S896x128_S128x256_S896x256_1_0_0_1_n_n none
        (truncf .bf16 (pad S896x128 ![0, 0] ![96, 0] ![0, 0] (X2 m c) (sitofp .f32 (constantI S_ 32 0#32) : FVec F S_ .f32) pads_S800x128_S896x128_0960_000 h_S_) bitsLt_bf16_f32)
        (truncf .bf16 (extractStridedSlice S128x256 ![128, 0] (m ((c : Thread nD τ).loc main_arg8)) slices_S256x256_S128x256_128_0) bitsLt_bf16_f32)) bitsLt_bf16_f32 := by
  rw [projB_term1, afterNets_v103, afterNets_arg8]

/-- The last layer's weight column, laid out as a row. -/
theorem w2_term (m : (ℓ : Loc nD τ sig) → Buf (Elt F) ℓ) (c : Dev nD) :
    V m c main_v116 = shapeCast S1x64 (m ((c : Thread nD τ).loc main_arg12)) shapeCasts_S64x1_S1x64 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

/-! ## The products read at an index, at the ideal values -/

/-- In a [896,128] x [128,256] product contracted over the shared axis, output entry (r, c') at contraction position k
    reads the left operand at (r, k) -/
theorem lhs_D896 (r : Fin 896) (c' : Fin 256) (k : Fin 128) :
    dot_S896x128_S128x256_S896x256_1_0_0_1_n_n.lhsIdx (ix2 r c') ((contrEquiv1 dot_S896x128_S128x256_S896x256_1_0_0_1_n_n 128 rfl rfl).symm k) = ix2 r k := by
  have hk := contrEquiv1_symm_val dot_S896x128_S128x256_S896x256_1_0_0_1_n_n 128 rfl rfl k
  refine funext fun a => Fin.ext ?_
  match a with
  | ⟨0, _⟩ =>
    show (dot_S896x128_S128x256_S896x256_1_0_0_1_n_n.lhsIdx (ix2 r c') _ 0).val = r.val
    unfold DotDims.lhsIdx
    rw [dif_neg (show ¬(0 : Fin S896x128.rank) ∈ dot_S896x128_S128x256_S896x256_1_0_0_1_n_n.lhsBatch by decide), dif_pos (show (0 : Fin S896x128.rank) ∈ dot_S896x128_S128x256_S896x256_1_0_0_1_n_n.lhsNonContracting by decide)]
    rfl
  | ⟨1, _⟩ =>
    exact (dot_S896x128_S128x256_S896x256_1_0_0_1_n_n.lhsIdx_val_of_single (cl := 1) rfl (ix2 r c') _).trans hk

/-- and the right operand at (k, c'). -/
theorem rhs_D896 (r : Fin 896) (c' : Fin 256) (k : Fin 128) :
    dot_S896x128_S128x256_S896x256_1_0_0_1_n_n.rhsIdx (ix2 r c') ((contrEquiv1 dot_S896x128_S128x256_S896x256_1_0_0_1_n_n 128 rfl rfl).symm k) = ix2 k c' := by
  have hk := contrEquiv1_symm_val dot_S896x128_S128x256_S896x256_1_0_0_1_n_n 128 rfl rfl k
  refine funext fun a => Fin.ext ?_
  match a with
  | ⟨0, _⟩ =>
    exact (dot_S896x128_S128x256_S896x256_1_0_0_1_n_n.rhsIdx_val_of_single (cr := 0) rfl (ix2 r c') _).trans hk
  | ⟨1, _⟩ =>
    show (dot_S896x128_S128x256_S896x256_1_0_0_1_n_n.rhsIdx (ix2 r c') _ 1).val = c'.val
    unfold DotDims.rhsIdx
    rw [dif_neg (show ¬(1 : Fin S128x256.rank) ∈ dot_S896x128_S128x256_S896x256_1_0_0_1_n_n.rhsBatch by decide), dif_pos (show (1 : Fin S128x256.rank) ∈ dot_S896x128_S128x256_S896x256_1_0_0_1_n_n.rhsNonContracting by decide)]
    rfl

/-- A table of 800 rows padded below to 896 rows, cut to half precision, contracted against rows off .. off + 127 of a
    256-row weight matrix, cut to half precision, and cut again: at the ideal values, where the cuts change nothing, a
    row below 800 of the result is the row of the table against those 128 rows of the weights. -/
theorem proj_apply (x : (⟨S800x128, .f32⟩ : BufTy).Contents (Elt Ideal)) (z : (⟨S_, .f32⟩ : BufTy).Contents (Elt Ideal))
    (w : (⟨S256x256, .f32⟩ : BufTy).Contents (Elt Ideal)) (off : Nat)
    (hs : S256x256.Slices ![off, 0] S128x256) (g : Fin 128 → Fin 256) (hg : ∀ k, (g k).val = off + k.val)
    (r : Fin 896) (hr : r.val < 800) (c' : Fin 256) :
    (truncf .bf16 (Host.dotGeneral dot_S896x128_S128x256_S896x256_1_0_0_1_n_n none
        (truncf .bf16 (pad S896x128 ![0, 0] ![96, 0] ![0, 0] x z pads_S800x128_S896x128_0960_000 h_S_) bitsLt_bf16_f32)
        (truncf .bf16 (extractStridedSlice S128x256 ![off, 0] w hs) bitsLt_bf16_f32)) bitsLt_bf16_f32 : FVec Ideal S896x256 .bf16) (ix2 r c')
      = ∑ k : Fin 128, x (ix2 (⟨r.val, hr⟩ : Fin 800) k) * w (ix2 (g k) c') := by
  rw [truncf_apply]
  simp only [Host.dotGeneral]
  rw [MatmulSum.dotGeneral_apply_single dot_S896x128_S128x256_S896x256_1_0_0_1_n_n none _ 128 rfl rfl _ _ (ix2 r c')
    (fun k => ix2 r k) (fun k => ix2 k c') (lhs_D896 r c') (rhs_D896 r c')]
  refine Finset.sum_congr rfl fun k _ => ?_
  rw [truncf_apply, truncf_apply]
  congr 1
  · exact pad_apply_of_inside _ _ _ _ _ _ _ _ _ (fun a => by
      match a with
      | ⟨0, _⟩ => show r.val = 0 + r.val * (0 + 1); omega
      | ⟨1, _⟩ => show k.val = 0 + k.val * (0 + 1); omega)
  · exact extractStridedSlice_apply _ _ _ _ _ (fun a => by
      match a with
      | ⟨0, _⟩ => exact hg k
      | ⟨1, _⟩ => show c'.val = 0 + c'.val; omega)

theorem projA_apply (m : (ℓ : Loc nD τ sig) → Buf (Elt Ideal) ℓ) (c : Dev nD) (r : Fin 896) (hr : r.val < 800) (c' : Fin 256) :
    V m c main_v111 (ix2 r c') = ∑ k : Fin 128, X1 m c (ix2 (⟨r.val, hr⟩ : Fin 800) k)
      * m ((c : Thread nD τ).loc main_arg8) (ix2 (⟨k.val, by have := k.isLt; omega⟩ : Fin 256) c') := by
  rw [projA_term]
  exact proj_apply (X1 m c) _ (m ((c : Thread nD τ).loc main_arg8)) 0 slices_S256x256_S128x256_0_0
    (fun k => ⟨k.val, by have := k.isLt; omega⟩) (fun k => (Nat.zero_add _).symm) r hr c'

theorem projB_apply (m : (ℓ : Loc nD τ sig) → Buf (Elt Ideal) ℓ) (c : Dev nD) (r : Fin 896) (hr : r.val < 800) (c' : Fin 256) :
    V m c main_v115 (ix2 r c') = ∑ k : Fin 128, X2 m c (ix2 (⟨r.val, hr⟩ : Fin 800) k)
      * m ((c : Thread nD τ).loc main_arg8) (ix2 (⟨128 + k.val, by have := k.isLt; omega⟩ : Fin 256) c') := by
  rw [projB_term]
  exact proj_apply (X2 m c) _ (m ((c : Thread nD τ).loc main_arg8)) 128 slices_S256x256_S128x256_128_0
    (fun k => ⟨128 + k.val, by have := k.isLt; omega⟩) (fun k => rfl) r hr c'

/-- Entry (0, d) of the row is entry (d, 0) of the column. -/
theorem w2_apply (m : (ℓ : Loc nD τ sig) → Buf (Elt F) ℓ) (c : Dev nD) (d : Fin 64) :
    V m c main_v116 (ix2 (0 : Fin 1) d) = m ((c : Thread nD τ).loc main_arg12) (ix2 d (0 : Fin 1)) := by
  rw [w2_term]
  exact shapeCast_apply _ shapeCasts_S64x1_S1x64 _ _ (by
    rw [Shape.rowMajor_val_two, Shape.rowMajor_val_two]; show d.val * 1 + 0 = 0 * 64 + d.val; omega)

/-! ## The host operations after the region -/

/-- After the region, the result is the leading 800 x 800 corner of the region's 896 x 896 output, laid out as one
    row of 640000 entries. -/
theorem tail_term (m : (ℓ : Loc nD τ sig) → Buf (Elt F) ℓ) (c : Dev nD) :
    Pipeline.afterTail₀ cfgs (dats m) 0 (V0 m) [hostOps1] c main_v119
      = shapeCast S640000 (extractStridedSlice S800x800 ![0, 0] ((dats m 0 c).arrAt 7 cfg0.N) slices_S896x896_S800x800_0_0) shapeCasts_S800x800_S640000 := by
  unfold Pipeline.afterTail₀
  show StableHlo.after hostOps1 _ (Proc.devRef .tc main_v119) = _
  after_results
  have e := Pipeline.withArrays_arr spec0 launch0.win.arr_inj c (V0 m c) (fun w => (dats m 0 c).arrAt w cfg0.N) 7
  exact congrArg (fun A => shapeCast S640000 (extractStridedSlice S800x800 ![0, 0] A slices_S896x896_S800x800_0_0) shapeCasts_S800x800_S640000) e

/-- Entry n of the result is the region's output at row n / 800, column n % 800. -/
theorem tail_apply (m : (ℓ : Loc nD τ sig) → Buf (Elt F) ℓ) (c : Dev nD) (n : Fin 640000) :
    Pipeline.afterTail₀ cfgs (dats m) 0 (V0 m) [hostOps1] c main_v119 (ix1 n)
      = (dats m 0 c).arrAt 7 cfg0.N (ix2 (⟨n.val / 800, by have := n.isLt; omega⟩ : Fin 896) (⟨n.val % 800, by have := Nat.mod_lt n.val (by decide : 0 < 800); omega⟩ : Fin 896)) := by
  rw [tail_term]
  have hn := n.isLt
  rw [shapeCast_apply _ shapeCasts_S800x800_S640000 (ix1 n) (ix2 (⟨n.val / 800, by omega⟩ : Fin 800) (⟨n.val % 800, Nat.mod_lt _ (by decide)⟩ : Fin 800))
    (by rw [Shape.rowMajor_val_two, Shape.rowMajor_val_one]; show n.val / 800 * 800 + n.val % 800 = n.val; omega)]
  exact extractStridedSlice_apply _ _ _ _ _ (fun a => by
    match a with
    | ⟨0, _⟩ => show n.val / 800 = 0 + n.val / 800; omega
    | ⟨1, _⟩ => show n.val % 800 = 0 + n.val % 800; omega)

end Cert.KernelIdeal.HostSide

end
-- ==== Proof.Result.lean ====
/-
  The result both programs compute, as one function of the argument arrays: the score of every pair of residues,
  pair (i, j) at position 800 i + j.

  The two tables of residue features are the outputs of the two graph layers, which are the same host operations in
  both programs (the stages for main_v51 and main_v103 of the reference, never opened here). The score of a pair is
  `Cert.PairScore.score` of its first-layer activations, written here with the first layer split over the two halves of
  its weight matrix (`Cert.PairScore.actSplit`), which equals the form over the joined row for all extended-real
  entries (`Cert.PairScore.actConcat_eq_actSplit`).
-/
import proofs.«149957_j27058293965309_2_alg».proof.Proof.RefRead
import proofs.«149957_j27058293965309_2_alg».proof.Proof.Spec
import Idealize.ShloMosaic.Lib.ValueIdx

noncomputable section

namespace Cert.PairScore

open Cert.ReferenceIdeal Cert.ReferenceIdeal.ReadP Idealize.ShloMosaic Idealize.ShloMosaic.ValueIdx

/-- The score of pair (n / 800, n % 800), for every position n of the flat result. -/
def result (x0 : (⟨S800x1024, .f32⟩ : BufTy).Contents (Elt Ideal)) (x1 : (⟨S800x10, .i32⟩ : BufTy).Contents (Elt Ideal))
    (x2 : (⟨S800x1024, .f32⟩ : BufTy).Contents (Elt Ideal)) (x3 : (⟨S800x10, .i32⟩ : BufTy).Contents (Elt Ideal))
    (x4 x5 : (⟨S1024x256, .f32⟩ : BufTy).Contents (Elt Ideal)) (x6 x7 : (⟨S256x128, .f32⟩ : BufTy).Contents (Elt Ideal))
    (x8 : (⟨S256x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (x12 : (⟨S64x1, .f32⟩ : BufTy).Contents (Elt Ideal)) (x13 : (⟨S1, .f32⟩ : BufTy).Contents (Elt Ideal)) :
    S640000.Idx → EReal := fun i =>
  score
    (actSplit
      (fun k : Fin 128 => val_main_v51 (F := Ideal) x0 x1 x4 x5 x6 x7 (ix2 (⟨(i 0).val / 800, by have h : (i 0).val < 640000 := (i 0).isLt; show (i 0).val / 800 < 800; omega⟩ : Fin 800) k))
      (fun k : Fin 128 => val_main_v103 (F := Ideal) x2 x3 x4 x5 x6 x7 (ix2 (⟨(i 0).val % 800, Nat.mod_lt _ (by decide)⟩ : Fin 800) k))
      (fun (k c : Fin 256) => x8 (ix2 k c)) (fun c : Fin 256 => x9 (ix1 c)))
    (fun (c : Fin 256) (d : Fin 64) => x10 (ix2 c d)) (fun d : Fin 64 => x11 (ix1 d))
    (fun d : Fin 64 => x12 (ix2 d (0 : Fin 1))) (x13 (ix1 (0 : Fin 1)))

end Cert.PairScore

end
-- ==== Proof.KernelRun.lean ====
/-
  The kernel program's run, read: its result is the score of every pair.

  After the region the program keeps the leading 800 x 800 corner of the 896 x 896 table and lays it out as one row, so
  position n holds the table's entry (n / 800, n % 800). That entry is the score of the pair whose first-layer activations
  come from row n / 800 of the first projection and row n % 800 of the second; both rows lie below 800, where the
  zero-padding of the feature tables plays no part, and there the projections are the contractions of the residue
  tables' rows with the two halves of the first weight matrix. So the entry is `Cert.PairScore.result` at n.
-/
import proofs.«149957_j27058293965309_2_alg».proof.Proof.KernelArray
import proofs.«149957_j27058293965309_2_alg».proof.Proof.KernelHost
import proofs.«149957_j27058293965309_2_alg».proof.Proof.Result

set_option maxRecDepth 16384

noncomputable section

namespace Cert.KernelIdeal.Run

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The result buffer after the host operations that follow the region: the score of every pair. -/
theorem result_eq (c : Dev nD) :
    Pipeline.afterTail₀ cfgs (dats m) 0 (V0 m) [hostOps1] c main_v119
      = Cert.PairScore.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨n, rfl⟩ : ∃ n : Fin 640000, i = ix1 n := ⟨i 0, eq_ix1 i⟩
  have hn := n.isLt
  rw [Cert.KernelIdeal.HostSide.tail_apply m c n, Cert.KernelIdeal.Table.final m c]
  unfold Cert.KernelIdeal.Table.table Cert.PairScore.result
  refine congr (congr (congr (congr (congrArg Cert.PairScore.score (funext fun cc => ?_)) (funext fun cc => funext fun d => ?_)) (funext fun d => ?_)) (funext fun d => ?_)) ?_
  · unfold Cert.PairScore.actSplit
    have a0 := Cert.KernelIdeal.HostSide.projA_apply m c (⟨n.val / 800, by omega⟩ : Fin 896) (by show n.val / 800 < 800; omega) cc
    have a1 := Cert.KernelIdeal.HostSide.projB_apply m c (⟨n.val % 800, by omega⟩ : Fin 896) (by show n.val % 800 < 800; omega) cc
    have a2 := congrFun (V_main_arg9 m c) (ix1 cc)
    exact congrArg (fun z : EReal => max z 0) (congrArg₂ (· + ·) (congrArg₂ (· + ·) a0 a1) a2)
  · exact congrFun (V_main_arg10 m c) (ix2 cc d)
  · exact congrFun (V_main_arg11 m c) (ix1 d)
  · exact Cert.KernelIdeal.HostSide.w2_apply m c d
  · exact congrFun (V_main_arg13 m c) (ix1 (0 : Fin 1))

/-- Every weakly fair execution of the kernel program ends with its result at the score of every pair and its
    arguments unchanged. -/
theorem run : θ_run defs (onTc (τ := τ) (main (F := Ideal))) ⟨m, fun _ => 0, ρ⟩ (fun r => ∀ c : Dev nD,
      r.2.mem ((c.tc : Thread nD τ).loc main_v119) = Cert.PairScore.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v119 (Pipeline.mem_restRefs_of main_v119 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 2).trans ((((dats m) 0 c).arrAt_in 2 rfl _).trans ((A_eq m c 2).trans (V_main_arg9 m c))),
      ((h c).1 3).trans ((((dats m) 0 c).arrAt_in 3 rfl _).trans ((A_eq m c 3).trans (V_main_arg10 m c))),
      ((h c).1 4).trans ((((dats m) 0 c).arrAt_in 4 rfl _).trans ((A_eq m c 4).trans (V_main_arg11 m c))),
      (((h c).2 main_arg12 (Pipeline.mem_restRefs_of main_arg12 (by decide) (by decide))).trans (W_main_arg12 m (dats m) c)),
      ((h c).1 6).trans ((((dats m) 0 c).arrAt_in 6 rfl _).trans ((A_eq m c 6).trans (V_main_arg13 m c)))⟩) (run_main m ρ)

end Cert.KernelIdeal.Run

end
-- ==== Proof.RefRunStretches.lean ====
/-
  The reference program's run, read in two stretches.

  The program is a straight line of 161 host operations. The first 136 are the two graph networks, which end with the two
  residue tables in main_v51 and main_v103 and write none of the dense layers' parameters; the last 25 join the tables' rows
  pair by pair and apply the three dense layers. Running the whole line is running the first stretch and then the second
  from what the first leaves (`after_append`). After the first stretch the two tables are the stages `val_main_v51` and
  `val_main_v103` of the arguments — the same operations, composed — and the parameters are as launched; the second
  stretch, from ANY contents with those tables and parameters, leaves in main_v124 the remaining stages composed, which is
  the stage `val_main_v124` of the arguments. No operation writes an argument, so every argument ends as launched.
-/
import proofs.«149957_j27058293965309_2_alg».proof.Proof.RefRun
import proofs.«149957_j27058293965309_2_alg».proof.Proof.RefRead
import Idealize.ShloMosaic.Lib.StableHlo.Run

noncomputable section

namespace Cert.ReferenceIdeal.ByStretches

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The two graph networks: the program's first 136 operations. -/
abbrev opsHead : List (HloOp τ sig (Elt F)) :=
  [ binary main_arg0 main_arg4 main_v0 ((fun l r => Host.dotGeneral dot_S800x1024_S1024x256_S800x256_1_0_0_1_n_n none l r) : (⟨S800x1024, .f32⟩ : BufTy).Contents (Elt F) → (⟨S1024x256, .f32⟩ : BufTy).Contents (Elt F) → (⟨S800x256, .f32⟩ : BufTy).Contents (Elt F)),
    binary main_arg0 main_arg5 main_v1 ((fun l r => Host.dotGeneral dot_S800x1024_S1024x256_S800x256_1_0_0_1_n_n none l r) : (⟨S800x1024, .f32⟩ : BufTy).Contents (Elt F) → (⟨S1024x256, .f32⟩ : BufTy).Contents (Elt F) → (⟨S800x256, .f32⟩ : BufTy).Contents (Elt F)),
    nullary main_c (constantI S_ 32 4294967295#32),
    unary main_c main_v2 (broadcastInDim S800x10 ![] bcast_S_S800x10 : (⟨S_, .i32⟩ : BufTy).Contents (Elt F) → (⟨S800x10, .i32⟩ : BufTy).Contents (Elt F)),
    binary main_arg1 main_v2 main_v3 (cmpi .sgt : (⟨S800x10, .i32⟩ : BufTy).Contents (Elt F) → (⟨S800x10, .i32⟩ : BufTy).Contents (Elt F) → (⟨S800x10, .i1⟩ : BufTy).Contents (Elt F)),
    nullary main_c_0 (constantI S_ 32 0#32),
    unary main_c_0 main_v4 (broadcastInDim S800x10 ![] bcast_S_S800x10 : (⟨S_, .i32⟩ : BufTy).Contents (Elt F) → (⟨S800x10, .i32⟩ : BufTy).Contents (Elt F)),
    binary main_arg1 main_v4 main_v5 (cmpi .slt : (⟨S800x10, .i32⟩ : BufTy).Contents (Elt F) → (⟨S800x10, .i32⟩ : BufTy).Contents (Elt F) → (⟨S800x10, .i1⟩ : BufTy).Contents (Elt F)),
    nullary main_c_1 (constantI S_ 32 800#32),
    unary main_c_1 main_v6 (broadcastInDim S800x10 ![] bcast_S_S800x10 : (⟨S_, .i32⟩ : BufTy).Contents (Elt F) → (⟨S800x10, .i32⟩ : BufTy).Contents (Elt F)),
    binary main_arg1 main_v6 main_v7 (addi : (⟨S800x10, .i32⟩ : BufTy).Contents (Elt F) → (⟨S800x10, .i32⟩ : BufTy).Contents (Elt F) → (⟨S800x10, .i32⟩ : BufTy).Contents (Elt F)),
    ternary main_v5 main_v7 main_arg1 main_v8 (select : (⟨S800x10, .i1⟩ : BufTy).Contents (Elt F) → (⟨S800x10, .i32⟩ : BufTy).Contents (Elt F) → (⟨S800x10, .i32⟩ : BufTy).Contents (Elt F) → (⟨S800x10, .i32⟩ : BufTy).Contents (Elt F)),
    unary main_v8 main_v9 (broadcastInDim S800x10x1 ![0, 1] bcast_S800x10_S800x10x1_0_1 : (⟨S800x10, .i32⟩ : BufTy).Contents (Elt F) → (⟨S800x10x1, .i32⟩ : BufTy).Contents (Elt F)),
    binary main_v1 main_v9 main_v10 ((fun x i => Host.gather gather_S800x256_S800x10x1_S800x10x256_2_0_n_n_0_2_1256 x i) : (⟨S800x256, .f32⟩ : BufTy).Contents (Elt F) → (⟨S800x10x1, .i32⟩ : BufTy).Contents (Elt F) → (⟨S800x10x256, .f32⟩ : BufTy).Contents (Elt F)),
    unary main_v3 main_v11 (broadcastInDim S800x10x1 ![0, 1] bcast_S800x10_S800x10x1_0_1 : (⟨S800x10, .i1⟩ : BufTy).Contents (Elt F) → (⟨S800x10x1, .i1⟩ : BufTy).Contents (Elt F)),
    unary main_v11 main_v12 (uitofp .f32 : (⟨S800x10x1, .i1⟩ : BufTy).Contents (Elt F) → (⟨S800x10x1, .f32⟩ : BufTy).Contents (Elt F)),
    unary main_v12 main_v13 (broadcastInDim S800x10x256 ![0, 1, 2] bcast_S800x10x1_S800x10x256_0_1_2 : (⟨S800x10x1, .f32⟩ : BufTy).Contents (Elt F) → (⟨S800x10x256, .f32⟩ : BufTy).Contents (Elt F)),
    binary main_v10 main_v13 main_v14 (mulf : (⟨S800x10x256, .f32⟩ : BufTy).Contents (Elt F) → (⟨S800x10x256, .f32⟩ : BufTy).Contents (Elt F) → (⟨S800x10x256, .f32⟩ : BufTy).Contents (Elt F)),
    unary main_v3 main_v15 ((extui 32 · natLt_1_32) : (⟨S800x10, .i1⟩ : BufTy).Contents (Elt F) → (⟨S800x10, .i32⟩ : BufTy).Contents (Elt F)),
    nullary main_c_2 (constantI S_ 32 0#32),
    binary main_v15 main_c_2 main_v16 ((fun x v => Host.reduce IntOp.addi x v reducesTo_S800x10_S800_d1 h_S_) : (⟨S800x10, .i32⟩ : BufTy).Contents (Elt F) → (⟨S_, .i32⟩ : BufTy).Contents (Elt F) → (⟨S800, .i32⟩ : BufTy).Contents (Elt F)),
    nullary main_c_3 (constantI S_ 32 1#32),
    unary main_c_3 main_v17 (broadcastInDim S800 ![] bcast_S_S800 : (⟨S_, .i32⟩ : BufTy).Contents (Elt F) → (⟨S800, .i32⟩ : BufTy).Contents (Elt F)),
    binary main_v16 main_v17 main_v18 (maxsi : (⟨S800, .i32⟩ : BufTy).Contents (Elt F) → (⟨S800, .i32⟩ : BufTy).Contents (Elt F) → (⟨S800, .i32⟩ : BufTy).Contents (Elt F)),
    unary main_v18 main_v19 (sitofp .f32 : (⟨S800, .i32⟩ : BufTy).Contents (Elt F) → (⟨S800, .f32⟩ : BufTy).Contents (Elt F)),
    nullary main_cst (constant S_ .f32 0x00000000#32),
    binary main_v14 main_cst main_v20 ((fun x v => Host.reduceAdd x v reducesTo_S800x10x256_S800x256_d1 h_S_) : (⟨S800x10x256, .f32⟩ : BufTy).Contents (Elt F) → (⟨S_, .f32⟩ : BufTy).Contents (Elt F) → (⟨S800x256, .f32⟩ : BufTy).Contents (Elt F)),
    unary main_v19 main_v21 (broadcastInDim S800x1 ![0] bcast_S800_S800x1_0 : (⟨S800, .f32⟩ : BufTy).Contents (Elt F) → (⟨S800x1, .f32⟩ : BufTy).Contents (Elt F)),
    unary main_v21 main_v22 (broadcastInDim S800x256 ![0, 1] bcast_S800x1_S800x256_0_1 : (⟨S800x1, .f32⟩ : BufTy).Contents (Elt F) → (⟨S800x256, .f32⟩ : BufTy).Contents (Elt F)),
    binary main_v20 main_v22 main_v23 (Host.divf : (⟨S800x256, .f32⟩ : BufTy).Contents (Elt F) → (⟨S800x256, .f32⟩ : BufTy).Contents (Elt F) → (⟨S800x256, .f32⟩ : BufTy).Contents (Elt F)),
    binary main_v0 main_v23 main_v24 (addf : (⟨S800x256, .f32⟩ : BufTy).Contents (Elt F) → (⟨S800x256, .f32⟩ : BufTy).Contents (Elt F) → (⟨S800x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800x256, .f32⟩) main_call0_v0) (broadcastInDim S800x256 ![] bcast_S_S800x256),
    TRef.binary (TRef.of (T := ⟨S800x256, .f32⟩) main_v24) (TRef.of (T := ⟨S800x256, .f32⟩) main_call0_v0) (TRef.of (T := ⟨S800x256, .f32⟩) main_v25) maximumf,
    binary main_v25 main_arg6 main_v26 ((fun l r => Host.dotGeneral dot_S800x256_S256x128_S800x128_1_0_0_1_n_n none l r) : (⟨S800x256, .f32⟩ : BufTy).Contents (Elt F) → (⟨S256x128, .f32⟩ : BufTy).Contents (Elt F) → (⟨S800x128, .f32⟩ : BufTy).Contents (Elt F)),
    binary main_v25 main_arg7 main_v27 ((fun l r => Host.dotGeneral dot_S800x256_S256x128_S800x128_1_0_0_1_n_n none l r) : (⟨S800x256, .f32⟩ : BufTy).Contents (Elt F) → (⟨S256x128, .f32⟩ : BufTy).Contents (Elt F) → (⟨S800x128, .f32⟩ : BufTy).Contents (Elt F)),
    nullary main_c_4 (constantI S_ 32 4294967295#32),
    unary main_c_4 main_v28 (broadcastInDim S800x10 ![] bcast_S_S800x10 : (⟨S_, .i32⟩ : BufTy).Contents (Elt F) → (⟨S800x10, .i32⟩ : BufTy).Contents (Elt F)),
    binary main_arg1 main_v28 main_v29 (cmpi .sgt : (⟨S800x10, .i32⟩ : BufTy).Contents (Elt F) → (⟨S800x10, .i32⟩ : BufTy).Contents (Elt F) → (⟨S800x10, .i1⟩ : BufTy).Contents (Elt F)),
    nullary main_c_5 (constantI S_ 32 0#32),
    unary main_c_5 main_v30 (broadcastInDim S800x10 ![] bcast_S_S800x10 : (⟨S_, .i32⟩ : BufTy).Contents (Elt F) → (⟨S800x10, .i32⟩ : BufTy).Contents (Elt F)),
    binary main_arg1 main_v30 main_v31 (cmpi .slt : (⟨S800x10, .i32⟩ : BufTy).Contents (Elt F) → (⟨S800x10, .i32⟩ : BufTy).Contents (Elt F) → (⟨S800x10, .i1⟩ : BufTy).Contents (Elt F)),
    nullary main_c_6 (constantI S_ 32 800#32),
    unary main_c_6 main_v32 (broadcastInDim S800x10 ![] bcast_S_S800x10 : (⟨S_, .i32⟩ : BufTy).Contents (Elt F) → (⟨S800x10, .i32⟩ : BufTy).Contents (Elt F)),
    binary main_arg1 main_v32 main_v33 (addi : (⟨S800x10, .i32⟩ : BufTy).Contents (Elt F) → (⟨S800x10, .i32⟩ : BufTy).Contents (Elt F) → (⟨S800x10, .i32⟩ : BufTy).Contents (Elt F)),
    ternary main_v31 main_v33 main_arg1 main_v34 (select : (⟨S800x10, .i1⟩ : BufTy).Contents (Elt F) → (⟨S800x10, .i32⟩ : BufTy).Contents (Elt F) → (⟨S800x10, .i32⟩ : BufTy).Contents (Elt F) → (⟨S800x10, .i32⟩ : BufTy).Contents (Elt F)),
    unary main_v34 main_v35 (broadcastInDim S800x10x1 ![0, 1] bcast_S800x10_S800x10x1_0_1 : (⟨S800x10, .i32⟩ : BufTy).Contents (Elt F) → (⟨S800x10x1, .i32⟩ : BufTy).Contents (Elt F)),
    binary main_v27 main_v35 main_v36 ((fun x i => Host.gather gather_S800x128_S800x10x1_S800x10x128_2_0_n_n_0_2_1128 x i) : (⟨S800x128, .f32⟩ : BufTy).Contents (Elt F) → (⟨S800x10x1, .i32⟩ : BufTy).Contents (Elt F) → (⟨S800x10x128, .f32⟩ : BufTy).Contents (Elt F)),
    unary main_v29 main_v37 (broadcastInDim S800x10x1 ![0, 1] bcast_S800x10_S800x10x1_0_1 : (⟨S800x10, .i1⟩ : BufTy).Contents (Elt F) → (⟨S800x10x1, .i1⟩ : BufTy).Contents (Elt F)),
    unary main_v37 main_v38 (uitofp .f32 : (⟨S800x10x1, .i1⟩ : BufTy).Contents (Elt F) → (⟨S800x10x1, .f32⟩ : BufTy).Contents (Elt F)),
    unary main_v38 main_v39 (broadcastInDim S800x10x128 ![0, 1, 2] bcast_S800x10x1_S800x10x128_0_1_2 : (⟨S800x10x1, .f32⟩ : BufTy).Contents (Elt F) → (⟨S800x10x128, .f32⟩ : BufTy).Contents (Elt F)),
    binary main_v36 main_v39 main_v40 (mulf : (⟨S800x10x128, .f32⟩ : BufTy).Contents (Elt F) → (⟨S800x10x128, .f32⟩ : BufTy).Contents (Elt F) → (⟨S800x10x128, .f32⟩ : BufTy).Contents (Elt F)),
    unary main_v29 main_v41 ((extui 32 · natLt_1_32) : (⟨S800x10, .i1⟩ : BufTy).Contents (Elt F) → (⟨S800x10, .i32⟩ : BufTy).Contents (Elt F)),
    nullary main_c_7 (constantI S_ 32 0#32),
    binary main_v41 main_c_7 main_v42 ((fun x v => Host.reduce IntOp.addi x v reducesTo_S800x10_S800_d1 h_S_) : (⟨S800x10, .i32⟩ : BufTy).Contents (Elt F) → (⟨S_, .i32⟩ : BufTy).Contents (Elt F) → (⟨S800, .i32⟩ : BufTy).Contents (Elt F)),
    nullary main_c_8 (constantI S_ 32 1#32),
    unary main_c_8 main_v43 (broadcastInDim S800 ![] bcast_S_S800 : (⟨S_, .i32⟩ : BufTy).Contents (Elt F) → (⟨S800, .i32⟩ : BufTy).Contents (Elt F)),
    binary main_v42 main_v43 main_v44 (maxsi : (⟨S800, .i32⟩ : BufTy).Contents (Elt F) → (⟨S800, .i32⟩ : BufTy).Contents (Elt F) → (⟨S800, .i32⟩ : BufTy).Contents (Elt F)),
    unary main_v44 main_v45 (sitofp .f32 : (⟨S800, .i32⟩ : BufTy).Contents (Elt F) → (⟨S800, .f32⟩ : BufTy).Contents (Elt F)),
    nullary main_cst_9 (constant S_ .f32 0x00000000#32),
    binary main_v40 main_cst_9 main_v46 ((fun x v => Host.reduceAdd x v reducesTo_S800x10x128_S800x128_d1 h_S_) : (⟨S800x10x128, .f32⟩ : BufTy).Contents (Elt F) → (⟨S_, .f32⟩ : BufTy).Contents (Elt F) → (⟨S800x128, .f32⟩ : BufTy).Contents (Elt F)),
    unary main_v45 main_v47 (broadcastInDim S800x1 ![0] bcast_S800_S800x1_0 : (⟨S800, .f32⟩ : BufTy).Contents (Elt F) → (⟨S800x1, .f32⟩ : BufTy).Contents (Elt F)),
    unary main_v47 main_v48 (broadcastInDim S800x128 ![0, 1] bcast_S800x1_S800x128_0_1 : (⟨S800x1, .f32⟩ : BufTy).Contents (Elt F) → (⟨S800x128, .f32⟩ : BufTy).Contents (Elt F)),
    binary main_v46 main_v48 main_v49 (Host.divf : (⟨S800x128, .f32⟩ : BufTy).Contents (Elt F) → (⟨S800x128, .f32⟩ : BufTy).Contents (Elt F) → (⟨S800x128, .f32⟩ : BufTy).Contents (Elt F)),
    binary main_v26 main_v49 main_v50 (addf : (⟨S800x128, .f32⟩ : BufTy).Contents (Elt F) → (⟨S800x128, .f32⟩ : BufTy).Contents (Elt F) → (⟨S800x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800x128, .f32⟩) main_call1_v0) (broadcastInDim S800x128 ![] bcast_S_S800x128),
    TRef.binary (TRef.of (T := ⟨S800x128, .f32⟩) main_v50) (TRef.of (T := ⟨S800x128, .f32⟩) main_call1_v0) (TRef.of (T := ⟨S800x128, .f32⟩) main_v51) maximumf,
    binary main_arg2 main_arg4 main_v52 ((fun l r => Host.dotGeneral dot_S800x1024_S1024x256_S800x256_1_0_0_1_n_n none l r) : (⟨S800x1024, .f32⟩ : BufTy).Contents (Elt F) → (⟨S1024x256, .f32⟩ : BufTy).Contents (Elt F) → (⟨S800x256, .f32⟩ : BufTy).Contents (Elt F)),
    binary main_arg2 main_arg5 main_v53 ((fun l r => Host.dotGeneral dot_S800x1024_S1024x256_S800x256_1_0_0_1_n_n none l r) : (⟨S800x1024, .f32⟩ : BufTy).Contents (Elt F) → (⟨S1024x256, .f32⟩ : BufTy).Contents (Elt F) → (⟨S800x256, .f32⟩ : BufTy).Contents (Elt F)),
    nullary main_c_10 (constantI S_ 32 4294967295#32),
    unary main_c_10 main_v54 (broadcastInDim S800x10 ![] bcast_S_S800x10 : (⟨S_, .i32⟩ : BufTy).Contents (Elt F) → (⟨S800x10, .i32⟩ : BufTy).Contents (Elt F)),
    binary main_arg3 main_v54 main_v55 (cmpi .sgt : (⟨S800x10, .i32⟩ : BufTy).Contents (Elt F) → (⟨S800x10, .i32⟩ : BufTy).Contents (Elt F) → (⟨S800x10, .i1⟩ : BufTy).Contents (Elt F)),
    nullary main_c_11 (constantI S_ 32 0#32),
    unary main_c_11 main_v56 (broadcastInDim S800x10 ![] bcast_S_S800x10 : (⟨S_, .i32⟩ : BufTy).Contents (Elt F) → (⟨S800x10, .i32⟩ : BufTy).Contents (Elt F)),
    binary main_arg3 main_v56 main_v57 (cmpi .slt : (⟨S800x10, .i32⟩ : BufTy).Contents (Elt F) → (⟨S800x10, .i32⟩ : BufTy).Contents (Elt F) → (⟨S800x10, .i1⟩ : BufTy).Contents (Elt F)),
    nullary main_c_12 (constantI S_ 32 800#32),
    unary main_c_12 main_v58 (broadcastInDim S800x10 ![] bcast_S_S800x10 : (⟨S_, .i32⟩ : BufTy).Contents (Elt F) → (⟨S800x10, .i32⟩ : BufTy).Contents (Elt F)),
    binary main_arg3 main_v58 main_v59 (addi : (⟨S800x10, .i32⟩ : BufTy).Contents (Elt F) → (⟨S800x10, .i32⟩ : BufTy).Contents (Elt F) → (⟨S800x10, .i32⟩ : BufTy).Contents (Elt F)),
    ternary main_v57 main_v59 main_arg3 main_v60 (select : (⟨S800x10, .i1⟩ : BufTy).Contents (Elt F) → (⟨S800x10, .i32⟩ : BufTy).Contents (Elt F) → (⟨S800x10, .i32⟩ : BufTy).Contents (Elt F) → (⟨S800x10, .i32⟩ : BufTy).Contents (Elt F)),
    unary main_v60 main_v61 (broadcastInDim S800x10x1 ![0, 1] bcast_S800x10_S800x10x1_0_1 : (⟨S800x10, .i32⟩ : BufTy).Contents (Elt F) → (⟨S800x10x1, .i32⟩ : BufTy).Contents (Elt F)),
    binary main_v53 main_v61 main_v62 ((fun x i => Host.gather gather_S800x256_S800x10x1_S800x10x256_2_0_n_n_0_2_1256 x i) : (⟨S800x256, .f32⟩ : BufTy).Contents (Elt F) → (⟨S800x10x1, .i32⟩ : BufTy).Contents (Elt F) → (⟨S800x10x256, .f32⟩ : BufTy).Contents (Elt F)),
    unary main_v55 main_v63 (broadcastInDim S800x10x1 ![0, 1] bcast_S800x10_S800x10x1_0_1 : (⟨S800x10, .i1⟩ : BufTy).Contents (Elt F) → (⟨S800x10x1, .i1⟩ : BufTy).Contents (Elt F)),
    unary main_v63 main_v64 (uitofp .f32 : (⟨S800x10x1, .i1⟩ : BufTy).Contents (Elt F) → (⟨S800x10x1, .f32⟩ : BufTy).Contents (Elt F)),
    unary main_v64 main_v65 (broadcastInDim S800x10x256 ![0, 1, 2] bcast_S800x10x1_S800x10x256_0_1_2 : (⟨S800x10x1, .f32⟩ : BufTy).Contents (Elt F) → (⟨S800x10x256, .f32⟩ : BufTy).Contents (Elt F)),
    binary main_v62 main_v65 main_v66 (mulf : (⟨S800x10x256, .f32⟩ : BufTy).Contents (Elt F) → (⟨S800x10x256, .f32⟩ : BufTy).Contents (Elt F) → (⟨S800x10x256, .f32⟩ : BufTy).Contents (Elt F)),
    unary main_v55 main_v67 ((extui 32 · natLt_1_32) : (⟨S800x10, .i1⟩ : BufTy).Contents (Elt F) → (⟨S800x10, .i32⟩ : BufTy).Contents (Elt F)),
    nullary main_c_13 (constantI S_ 32 0#32),
    binary main_v67 main_c_13 main_v68 ((fun x v => Host.reduce IntOp.addi x v reducesTo_S800x10_S800_d1 h_S_) : (⟨S800x10, .i32⟩ : BufTy).Contents (Elt F) → (⟨S_, .i32⟩ : BufTy).Contents (Elt F) → (⟨S800, .i32⟩ : BufTy).Contents (Elt F)),
    nullary main_c_14 (constantI S_ 32 1#32),
    unary main_c_14 main_v69 (broadcastInDim S800 ![] bcast_S_S800 : (⟨S_, .i32⟩ : BufTy).Contents (Elt F) → (⟨S800, .i32⟩ : BufTy).Contents (Elt F)),
    binary main_v68 main_v69 main_v70 (maxsi : (⟨S800, .i32⟩ : BufTy).Contents (Elt F) → (⟨S800, .i32⟩ : BufTy).Contents (Elt F) → (⟨S800, .i32⟩ : BufTy).Contents (Elt F)),
    unary main_v70 main_v71 (sitofp .f32 : (⟨S800, .i32⟩ : BufTy).Contents (Elt F) → (⟨S800, .f32⟩ : BufTy).Contents (Elt F)),
    nullary main_cst_15 (constant S_ .f32 0x00000000#32),
    binary main_v66 main_cst_15 main_v72 ((fun x v => Host.reduceAdd x v reducesTo_S800x10x256_S800x256_d1 h_S_) : (⟨S800x10x256, .f32⟩ : BufTy).Contents (Elt F) → (⟨S_, .f32⟩ : BufTy).Contents (Elt F) → (⟨S800x256, .f32⟩ : BufTy).Contents (Elt F)),
    unary main_v71 main_v73 (broadcastInDim S800x1 ![0] bcast_S800_S800x1_0 : (⟨S800, .f32⟩ : BufTy).Contents (Elt F) → (⟨S800x1, .f32⟩ : BufTy).Contents (Elt F)),
    unary main_v73 main_v74 (broadcastInDim S800x256 ![0, 1] bcast_S800x1_S800x256_0_1 : (⟨S800x1, .f32⟩ : BufTy).Contents (Elt F) → (⟨S800x256, .f32⟩ : BufTy).Contents (Elt F)),
    binary main_v72 main_v74 main_v75 (Host.divf : (⟨S800x256, .f32⟩ : BufTy).Contents (Elt F) → (⟨S800x256, .f32⟩ : BufTy).Contents (Elt F) → (⟨S800x256, .f32⟩ : BufTy).Contents (Elt F)),
    binary main_v52 main_v75 main_v76 (addf : (⟨S800x256, .f32⟩ : BufTy).Contents (Elt F) → (⟨S800x256, .f32⟩ : BufTy).Contents (Elt F) → (⟨S800x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800x256, .f32⟩) main_call2_v0) (broadcastInDim S800x256 ![] bcast_S_S800x256),
    TRef.binary (TRef.of (T := ⟨S800x256, .f32⟩) main_v76) (TRef.of (T := ⟨S800x256, .f32⟩) main_call2_v0) (TRef.of (T := ⟨S800x256, .f32⟩) main_v77) maximumf,
    binary main_v77 main_arg6 main_v78 ((fun l r => Host.dotGeneral dot_S800x256_S256x128_S800x128_1_0_0_1_n_n none l r) : (⟨S800x256, .f32⟩ : BufTy).Contents (Elt F) → (⟨S256x128, .f32⟩ : BufTy).Contents (Elt F) → (⟨S800x128, .f32⟩ : BufTy).Contents (Elt F)),
    binary main_v77 main_arg7 main_v79 ((fun l r => Host.dotGeneral dot_S800x256_S256x128_S800x128_1_0_0_1_n_n none l r) : (⟨S800x256, .f32⟩ : BufTy).Contents (Elt F) → (⟨S256x128, .f32⟩ : BufTy).Contents (Elt F) → (⟨S800x128, .f32⟩ : BufTy).Contents (Elt F)),
    nullary main_c_16 (constantI S_ 32 4294967295#32),
    unary main_c_16 main_v80 (broadcastInDim S800x10 ![] bcast_S_S800x10 : (⟨S_, .i32⟩ : BufTy).Contents (Elt F) → (⟨S800x10, .i32⟩ : BufTy).Contents (Elt F)),
    binary main_arg3 main_v80 main_v81 (cmpi .sgt : (⟨S800x10, .i32⟩ : BufTy).Contents (Elt F) → (⟨S800x10, .i32⟩ : BufTy).Contents (Elt F) → (⟨S800x10, .i1⟩ : BufTy).Contents (Elt F)),
    nullary main_c_17 (constantI S_ 32 0#32),
    unary main_c_17 main_v82 (broadcastInDim S800x10 ![] bcast_S_S800x10 : (⟨S_, .i32⟩ : BufTy).Contents (Elt F) → (⟨S800x10, .i32⟩ : BufTy).Contents (Elt F)),
    binary main_arg3 main_v82 main_v83 (cmpi .slt : (⟨S800x10, .i32⟩ : BufTy).Contents (Elt F) → (⟨S800x10, .i32⟩ : BufTy).Contents (Elt F) → (⟨S800x10, .i1⟩ : BufTy).Contents (Elt F)),
    nullary main_c_18 (constantI S_ 32 800#32),
    unary main_c_18 main_v84 (broadcastInDim S800x10 ![] bcast_S_S800x10 : (⟨S_, .i32⟩ : BufTy).Contents (Elt F) → (⟨S800x10, .i32⟩ : BufTy).Contents (Elt F)),
    binary main_arg3 main_v84 main_v85 (addi : (⟨S800x10, .i32⟩ : BufTy).Contents (Elt F) → (⟨S800x10, .i32⟩ : BufTy).Contents (Elt F) → (⟨S800x10, .i32⟩ : BufTy).Contents (Elt F)),
    ternary main_v83 main_v85 main_arg3 main_v86 (select : (⟨S800x10, .i1⟩ : BufTy).Contents (Elt F) → (⟨S800x10, .i32⟩ : BufTy).Contents (Elt F) → (⟨S800x10, .i32⟩ : BufTy).Contents (Elt F) → (⟨S800x10, .i32⟩ : BufTy).Contents (Elt F)),
    unary main_v86 main_v87 (broadcastInDim S800x10x1 ![0, 1] bcast_S800x10_S800x10x1_0_1 : (⟨S800x10, .i32⟩ : BufTy).Contents (Elt F) → (⟨S800x10x1, .i32⟩ : BufTy).Contents (Elt F)),
    binary main_v79 main_v87 main_v88 ((fun x i => Host.gather gather_S800x128_S800x10x1_S800x10x128_2_0_n_n_0_2_1128 x i) : (⟨S800x128, .f32⟩ : BufTy).Contents (Elt F) → (⟨S800x10x1, .i32⟩ : BufTy).Contents (Elt F) → (⟨S800x10x128, .f32⟩ : BufTy).Contents (Elt F)),
    unary main_v81 main_v89 (broadcastInDim S800x10x1 ![0, 1] bcast_S800x10_S800x10x1_0_1 : (⟨S800x10, .i1⟩ : BufTy).Contents (Elt F) → (⟨S800x10x1, .i1⟩ : BufTy).Contents (Elt F)),
    unary main_v89 main_v90 (uitofp .f32 : (⟨S800x10x1, .i1⟩ : BufTy).Contents (Elt F) → (⟨S800x10x1, .f32⟩ : BufTy).Contents (Elt F)),
    unary main_v90 main_v91 (broadcastInDim S800x10x128 ![0, 1, 2] bcast_S800x10x1_S800x10x128_0_1_2 : (⟨S800x10x1, .f32⟩ : BufTy).Contents (Elt F) → (⟨S800x10x128, .f32⟩ : BufTy).Contents (Elt F)),
    binary main_v88 main_v91 main_v92 (mulf : (⟨S800x10x128, .f32⟩ : BufTy).Contents (Elt F) → (⟨S800x10x128, .f32⟩ : BufTy).Contents (Elt F) → (⟨S800x10x128, .f32⟩ : BufTy).Contents (Elt F)),
    unary main_v81 main_v93 ((extui 32 · natLt_1_32) : (⟨S800x10, .i1⟩ : BufTy).Contents (Elt F) → (⟨S800x10, .i32⟩ : BufTy).Contents (Elt F)),
    nullary main_c_19 (constantI S_ 32 0#32),
    binary main_v93 main_c_19 main_v94 ((fun x v => Host.reduce IntOp.addi x v reducesTo_S800x10_S800_d1 h_S_) : (⟨S800x10, .i32⟩ : BufTy).Contents (Elt F) → (⟨S_, .i32⟩ : BufTy).Contents (Elt F) → (⟨S800, .i32⟩ : BufTy).Contents (Elt F)),
    nullary main_c_20 (constantI S_ 32 1#32),
    unary main_c_20 main_v95 (broadcastInDim S800 ![] bcast_S_S800 : (⟨S_, .i32⟩ : BufTy).Contents (Elt F) → (⟨S800, .i32⟩ : BufTy).Contents (Elt F)),
    binary main_v94 main_v95 main_v96 (maxsi : (⟨S800, .i32⟩ : BufTy).Contents (Elt F) → (⟨S800, .i32⟩ : BufTy).Contents (Elt F) → (⟨S800, .i32⟩ : BufTy).Contents (Elt F)),
    unary main_v96 main_v97 (sitofp .f32 : (⟨S800, .i32⟩ : BufTy).Contents (Elt F) → (⟨S800, .f32⟩ : BufTy).Contents (Elt F)),
    nullary main_cst_21 (constant S_ .f32 0x00000000#32),
    binary main_v92 main_cst_21 main_v98 ((fun x v => Host.reduceAdd x v reducesTo_S800x10x128_S800x128_d1 h_S_) : (⟨S800x10x128, .f32⟩ : BufTy).Contents (Elt F) → (⟨S_, .f32⟩ : BufTy).Contents (Elt F) → (⟨S800x128, .f32⟩ : BufTy).Contents (Elt F)),
    unary main_v97 main_v99 (broadcastInDim S800x1 ![0] bcast_S800_S800x1_0 : (⟨S800, .f32⟩ : BufTy).Contents (Elt F) → (⟨S800x1, .f32⟩ : BufTy).Contents (Elt F)),
    unary main_v99 main_v100 (broadcastInDim S800x128 ![0, 1] bcast_S800x1_S800x128_0_1 : (⟨S800x1, .f32⟩ : BufTy).Contents (Elt F) → (⟨S800x128, .f32⟩ : BufTy).Contents (Elt F)),
    binary main_v98 main_v100 main_v101 (Host.divf : (⟨S800x128, .f32⟩ : BufTy).Contents (Elt F) → (⟨S800x128, .f32⟩ : BufTy).Contents (Elt F) → (⟨S800x128, .f32⟩ : BufTy).Contents (Elt F)),
    binary main_v78 main_v101 main_v102 (addf : (⟨S800x128, .f32⟩ : BufTy).Contents (Elt F) → (⟨S800x128, .f32⟩ : BufTy).Contents (Elt F) → (⟨S800x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800x128, .f32⟩) main_call3_v0) (broadcastInDim S800x128 ![] bcast_S_S800x128),
    TRef.binary (TRef.of (T := ⟨S800x128, .f32⟩) main_v102) (TRef.of (T := ⟨S800x128, .f32⟩) main_call3_v0) (TRef.of (T := ⟨S800x128, .f32⟩) main_v103) maximumf ]

/-- The pairing and the three dense layers: the program's last 25 operations. -/
abbrev opsTail : List (HloOp τ sig (Elt F)) :=
  [ unary main_v51 main_v104 (broadcastInDim S800x1x128 ![0, 2] bcast_S800x128_S800x1x128_0_2 : (⟨S800x128, .f32⟩ : BufTy).Contents (Elt F) → (⟨S800x1x128, .f32⟩ : BufTy).Contents (Elt F)),
    unary main_v104 main_v105 (broadcastInDim S800x800x128 ![0, 1, 2] bcast_S800x1x128_S800x800x128_0_1_2 : (⟨S800x1x128, .f32⟩ : BufTy).Contents (Elt F) → (⟨S800x800x128, .f32⟩ : BufTy).Contents (Elt F)),
    unary main_v103 main_v106 (broadcastInDim S1x800x128 ![1, 2] bcast_S800x128_S1x800x128_1_2 : (⟨S800x128, .f32⟩ : BufTy).Contents (Elt F) → (⟨S1x800x128, .f32⟩ : BufTy).Contents (Elt F)),
    unary main_v106 main_v107 (broadcastInDim S800x800x128 ![0, 1, 2] bcast_S1x800x128_S800x800x128_0_1_2 : (⟨S1x800x128, .f32⟩ : BufTy).Contents (Elt F) → (⟨S800x800x128, .f32⟩ : BufTy).Contents (Elt F)),
    binary main_v105 main_v107 main_v108 ((fun a b => concatenate S800x800x256 2 [⟨S800x800x128, a⟩, ⟨S800x800x128, b⟩] concatenates_S800x800x128_S800x800x128_S800x800x256_d2) : (⟨S800x800x128, .f32⟩ : BufTy).Contents (Elt F) → (⟨S800x800x128, .f32⟩ : BufTy).Contents (Elt F) → (⟨S800x800x256, .f32⟩ : BufTy).Contents (Elt F)),
    reshape main_v108 main_v109 rfl shapeCasts_S800x800x256_S640000x256,
    binary main_v109 main_arg8 main_v110 ((fun l r => Host.dotGeneral dot_S640000x256_S256x256_S640000x256_1_0_0_1_n_n none l r) : (⟨S640000x256, .f32⟩ : BufTy).Contents (Elt F) → (⟨S256x256, .f32⟩ : BufTy).Contents (Elt F) → (⟨S640000x256, .f32⟩ : BufTy).Contents (Elt F)),
    unary main_arg9 main_v111 (broadcastInDim S1x256 ![1] bcast_S256_S1x256_1 : (⟨S256, .f32⟩ : BufTy).Contents (Elt F) → (⟨S1x256, .f32⟩ : BufTy).Contents (Elt F)),
    unary main_v111 main_v112 (broadcastInDim S640000x256 ![0, 1] bcast_S1x256_S640000x256_0_1 : (⟨S1x256, .f32⟩ : BufTy).Contents (Elt F) → (⟨S640000x256, .f32⟩ : BufTy).Contents (Elt F)),
    binary main_v110 main_v112 main_v113 (addf : (⟨S640000x256, .f32⟩ : BufTy).Contents (Elt F) → (⟨S640000x256, .f32⟩ : BufTy).Contents (Elt F) → (⟨S640000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S640000x256, .f32⟩) main_call4_v0) (broadcastInDim S640000x256 ![] bcast_S_S640000x256),
    TRef.binary (TRef.of (T := ⟨S640000x256, .f32⟩) main_v113) (TRef.of (T := ⟨S640000x256, .f32⟩) main_call4_v0) (TRef.of (T := ⟨S640000x256, .f32⟩) main_v114) maximumf,
    binary main_v114 main_arg10 main_v115 ((fun l r => Host.dotGeneral dot_S640000x256_S256x64_S640000x64_1_0_0_1_n_n none l r) : (⟨S640000x256, .f32⟩ : BufTy).Contents (Elt F) → (⟨S256x64, .f32⟩ : BufTy).Contents (Elt F) → (⟨S640000x64, .f32⟩ : BufTy).Contents (Elt F)),
    unary main_arg11 main_v116 (broadcastInDim S1x64 ![1] bcast_S64_S1x64_1 : (⟨S64, .f32⟩ : BufTy).Contents (Elt F) → (⟨S1x64, .f32⟩ : BufTy).Contents (Elt F)),
    unary main_v116 main_v117 (broadcastInDim S640000x64 ![0, 1] bcast_S1x64_S640000x64_0_1 : (⟨S1x64, .f32⟩ : BufTy).Contents (Elt F) → (⟨S640000x64, .f32⟩ : BufTy).Contents (Elt F)),
    binary main_v115 main_v117 main_v118 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S640000x64, .f32⟩) main_call5_v0) (broadcastInDim S640000x64 ![] bcast_S_S640000x64),
    TRef.binary (TRef.of (T := ⟨S640000x64, .f32⟩) main_v118) (TRef.of (T := ⟨S640000x64, .f32⟩) main_call5_v0) (TRef.of (T := ⟨S640000x64, .f32⟩) main_v119) maximumf,
    binary main_v119 main_arg12 main_v120 ((fun l r => Host.dotGeneral dot_S640000x64_S64x1_S640000x1_1_0_0_1_n_n none l r) : (⟨S640000x64, .f32⟩ : BufTy).Contents (Elt F) → (⟨S64x1, .f32⟩ : BufTy).Contents (Elt F) → (⟨S640000x1, .f32⟩ : BufTy).Contents (Elt F)),
    unary main_arg13 main_v121 (broadcastInDim S1x1 ![1] bcast_S1_S1x1_1 : (⟨S1, .f32⟩ : BufTy).Contents (Elt F) → (⟨S1x1, .f32⟩ : BufTy).Contents (Elt F)),
    unary main_v121 main_v122 (broadcastInDim S640000x1 ![0, 1] bcast_S1x1_S640000x1_0_1 : (⟨S1x1, .f32⟩ : BufTy).Contents (Elt F) → (⟨S640000x1, .f32⟩ : BufTy).Contents (Elt F)),
    binary main_v120 main_v122 main_v123 (addf : (⟨S640000x1, .f32⟩ : BufTy).Contents (Elt F) → (⟨S640000x1, .f32⟩ : BufTy).Contents (Elt F) → (⟨S640000x1, .f32⟩ : BufTy).Contents (Elt F)),
    reshape main_v123 main_v124 rfl shapeCasts_S640000x1_S640000 ]

set_option maxRecDepth 16384 in
/-- The program is the first stretch followed by the second. -/
theorem ops_split : (ops : List (HloOp τ sig (Elt F))) = opsHead ++ opsTail := rfl

/-- Running two lists of host operations one after the other is running their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

variable (m : (ℓ : Loc nD τ sig) → Buf (Elt F) ℓ) (c : Dev nD)

/-! ## After the first stretch -/

/-- The first residue table is its stage of the arguments. -/
theorem head_v51 : after opsHead (launchContents m c) (Proc.devRef .tc main_v51)
    = Cert.ReferenceIdeal.ReadP.val_main_v51 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  after_results_simp
  rfl

set_option maxHeartbeats 1000000 in
/-- The second residue table is its stage of the arguments. -/
theorem head_v103 : after opsHead (launchContents m c) (Proc.devRef .tc main_v103)
    = Cert.ReferenceIdeal.ReadP.val_main_v103 (F := F) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp
  rfl

/-- The dense layers' parameters are as launched. -/
theorem head_arg8 : after opsHead (launchContents m c) (Proc.devRef .tc main_arg8) = m ((c.tc : Thread nD τ).loc main_arg8) := by
  after_results_simp <;> rfl
theorem head_arg9 : after opsHead (launchContents m c) (Proc.devRef .tc main_arg9) = m ((c.tc : Thread nD τ).loc main_arg9) := by
  after_results_simp <;> rfl
theorem head_arg10 : after opsHead (launchContents m c) (Proc.devRef .tc main_arg10) = m ((c.tc : Thread nD τ).loc main_arg10) := by
  after_results_simp <;> rfl
theorem head_arg11 : after opsHead (launchContents m c) (Proc.devRef .tc main_arg11) = m ((c.tc : Thread nD τ).loc main_arg11) := by
  after_results_simp <;> rfl
theorem head_arg12 : after opsHead (launchContents m c) (Proc.devRef .tc main_arg12) = m ((c.tc : Thread nD τ).loc main_arg12) := by
  after_results_simp <;> rfl
theorem head_arg13 : after opsHead (launchContents m c) (Proc.devRef .tc main_arg13) = m ((c.tc : Thread nD τ).loc main_arg13) := by
  after_results_simp <;> rfl

/-! ## The whole line -/

set_option maxHeartbeats 1000000 in
/-- The result buffer after the whole line is the last stage of the arguments. -/
theorem result_stage : after ops (launchContents m c) (Proc.devRef .tc main_v124)
    = Cert.ReferenceIdeal.ReadP.val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ops_split, after_append]
  have h51 := head_v51 m c
  have h103 := head_v103 m c
  have h8 := head_arg8 m c
  have h9 := head_arg9 m c
  have h10 := head_arg10 m c
  have h11 := head_arg11 m c
  have h12 := head_arg12 m c
  have h13 := head_arg13 m c
  generalize after opsHead (launchContents m c) = W at h51 h103 h8 h9 h10 h11 h12 h13 ⊢
  after_results
  rw [h51, h103, h8, h9, h10, h11, h12, h13]
  rfl

/-- No operation writes an argument. -/
theorem kept_arg0 : after ops (launchContents m c) (Proc.devRef .tc main_arg0) = m ((c.tc : Thread nD τ).loc main_arg0) := by
  after_results_simp <;> rfl
theorem kept_arg1 : after ops (launchContents m c) (Proc.devRef .tc main_arg1) = m ((c.tc : Thread nD τ).loc main_arg1) := by
  after_results_simp <;> rfl
theorem kept_arg2 : after ops (launchContents m c) (Proc.devRef .tc main_arg2) = m ((c.tc : Thread nD τ).loc main_arg2) := by
  after_results_simp <;> rfl
theorem kept_arg3 : after ops (launchContents m c) (Proc.devRef .tc main_arg3) = m ((c.tc : Thread nD τ).loc main_arg3) := by
  after_results_simp <;> rfl
theorem kept_arg4 : after ops (launchContents m c) (Proc.devRef .tc main_arg4) = m ((c.tc : Thread nD τ).loc main_arg4) := by
  after_results_simp <;> rfl
theorem kept_arg5 : after ops (launchContents m c) (Proc.devRef .tc main_arg5) = m ((c.tc : Thread nD τ).loc main_arg5) := by
  after_results_simp <;> rfl
theorem kept_arg6 : after ops (launchContents m c) (Proc.devRef .tc main_arg6) = m ((c.tc : Thread nD τ).loc main_arg6) := by
  after_results_simp <;> rfl
theorem kept_arg7 : after ops (launchContents m c) (Proc.devRef .tc main_arg7) = m ((c.tc : Thread nD τ).loc main_arg7) := by
  after_results_simp <;> rfl
theorem kept_arg8 : after ops (launchContents m c) (Proc.devRef .tc main_arg8) = m ((c.tc : Thread nD τ).loc main_arg8) := by
  after_results_simp <;> rfl
theorem kept_arg9 : after ops (launchContents m c) (Proc.devRef .tc main_arg9) = m ((c.tc : Thread nD τ).loc main_arg9) := by
  after_results_simp <;> rfl
theorem kept_arg10 : after ops (launchContents m c) (Proc.devRef .tc main_arg10) = m ((c.tc : Thread nD τ).loc main_arg10) := by
  after_results_simp <;> rfl
theorem kept_arg11 : after ops (launchContents m c) (Proc.devRef .tc main_arg11) = m ((c.tc : Thread nD τ).loc main_arg11) := by
  after_results_simp <;> rfl
theorem kept_arg12 : after ops (launchContents m c) (Proc.devRef .tc main_arg12) = m ((c.tc : Thread nD τ).loc main_arg12) := by
  after_results_simp <;> rfl
theorem kept_arg13 : after ops (launchContents m c) (Proc.devRef .tc main_arg13) = m ((c.tc : Thread nD τ).loc main_arg13) := by
  after_results_simp <;> rfl

/-- On every device, for any float values, from any memory with zero counters: every weakly fair execution of the
    reference program terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = Cert.ReferenceIdeal.ReadP.val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v124).trans (result_stage m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c)⟩)
    (run_seq scopedRefs_eq scopedSems_eq defs main (fun _ => ops) main_eq (fun _ => ops_sub) m ρ)

end Cert.ReferenceIdeal.ByStretches

end
-- ==== Proof.RefValue.lean ====
/-
  The reference program's result, entry by entry, is the pair score of the specification.

  The reference joins row `i` of the first feature table and row `j` of the second into one 256-wide row for every
  pair `(i, j)`, lays the 800 × 800 pairs out as 640000 rows (pair `(i, j)` is row `800 i + j`), and sends the rows
  through three dense layers. Read at row `n`, the joined row is the specification's `pairRow` of row `n / 800` of the
  first table and row `n % 800` of the second; the first layer with its bias and ReLU is `actConcat`; the last two
  layers are `score`.
-/
import proofs.«149957_j27058293965309_2_alg».proof.Proof.RefRead
import proofs.«149957_j27058293965309_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x0 : (⟨S800x1024, .f32⟩ : BufTy).Contents (Elt Ideal)) (x1 : (⟨S800x10, .i32⟩ : BufTy).Contents (Elt Ideal))
  (x2 : (⟨S800x1024, .f32⟩ : BufTy).Contents (Elt Ideal)) (x3 : (⟨S800x10, .i32⟩ : BufTy).Contents (Elt Ideal))
  (x4 x5 : (⟨S1024x256, .f32⟩ : BufTy).Contents (Elt Ideal)) (x6 x7 : (⟨S256x128, .f32⟩ : BufTy).Contents (Elt Ideal))
  (x8 : (⟨S256x256, .f32⟩ : BufTy).Contents (Elt Ideal)) (x9 : (⟨S256, .f32⟩ : BufTy).Contents (Elt Ideal))
  (x10 : (⟨S256x64, .f32⟩ : BufTy).Contents (Elt Ideal)) (x11 : (⟨S64, .f32⟩ : BufTy).Contents (Elt Ideal))
  (x12 : (⟨S64x1, .f32⟩ : BufTy).Contents (Elt Ideal)) (x13 : (⟨S1, .f32⟩ : BufTy).Contents (Elt Ideal))

/-- The first table's row `a`, copied along the second pair axis: entry `(a, b, k)` is entry `(a, k)` of the table. -/
theorem first_apply (a b : Fin 800) (k : Fin 128) :
    val_main_v105 (F := Ideal) x0 x1 x4 x5 x6 x7 (ix3 a b k) = val_main_v51 (F := Ideal) x0 x1 x4 x5 x6 x7 (ix2 a k) := by
  rw [val_main_v105_apply, val_main_v104_apply]
  exact congrArg _ (funext fun d => Fin.ext (by match d with | ⟨0, _⟩ => rfl | ⟨1, _⟩ => rfl))

/-- The second table's row `b`, copied along the first pair axis: entry `(a, b, k)` is entry `(b, k)` of the table. -/
theorem second_apply (a b : Fin 800) (k : Fin 128) :
    val_main_v107 (F := Ideal) x2 x3 x4 x5 x6 x7 (ix3 a b k) = val_main_v103 (F := Ideal) x2 x3 x4 x5 x6 x7 (ix2 b k) := by
  rw [val_main_v107_apply, val_main_v106_apply]
  exact congrArg _ (funext fun d => Fin.ext (by match d with | ⟨0, _⟩ => rfl | ⟨1, _⟩ => rfl))

/-- The joined rows: position `k` of pair `(a, b)` is position `k` of row `a` of the first table when `k < 128`, and
    position `k - 128` of row `b` of the second table otherwise. -/
theorem joined_apply (a b : Fin 800) (k : Fin 256) :
    val_main_v108 (F := Ideal) x0 x1 x2 x3 x4 x5 x6 x7 (ix3 a b k)
      = Cert.PairScore.pairRow
          (fun k : Fin 128 => val_main_v51 (F := Ideal) x0 x1 x4 x5 x6 x7 (ix2 a k))
          (fun k : Fin 128 => val_main_v103 (F := Ideal) x2 x3 x4 x5 x6 x7 (ix2 b k)) k := by
  unfold Cert.PairScore.pairRow val_main_v108
  by_cases h : k.val < 128
  · rw [dif_pos h]
    refine (concatenate_pair_apply_left 2 _ _ concatenates_S800x800x128_S800x800x128_S800x800x256_d2 (ix3 a b k) rfl
      (ix3 a b (⟨k.val, h⟩ : Fin 128)) (fun d => by
        match d with
        | ⟨0, _⟩ => rfl
        | ⟨1, _⟩ => rfl
        | ⟨2, _⟩ => rfl)).trans ?_
    exact first_apply x0 x1 x4 x5 x6 x7 a b ⟨k.val, h⟩
  · rw [dif_neg h]
    have hk : k.val - 128 < 128 := by have := k.isLt; omega
    refine (concatenate_pair_apply_right 2 _ _ concatenates_S800x800x128_S800x800x128_S800x800x256_d2 (ix3 a b k) rfl rfl
      (ix3 a b (⟨k.val - 128, hk⟩ : Fin 128)) (fun d hd => by
        match d with
        | ⟨0, _⟩ => rfl
        | ⟨1, _⟩ => rfl
        | ⟨2, _⟩ => exact absurd rfl hd)
      (by show (k.val - 128) + 128 = k.val; omega)).trans ?_
    exact second_apply x2 x3 x4 x5 x6 x7 a b ⟨k.val - 128, hk⟩

/-- The pairs laid out as rows: row `n` is the joined row of pair `(n / 800, n % 800)`. -/
theorem rows_apply (n : Fin 640000) (k : Fin 256) :
    val_main_v109 (F := Ideal) x0 x1 x2 x3 x4 x5 x6 x7 (ix2 n k)
      = Cert.PairScore.pairRow
          (fun k : Fin 128 => val_main_v51 (F := Ideal) x0 x1 x4 x5 x6 x7 (ix2 (⟨n.val / 800, by have := n.isLt; omega⟩ : Fin 800) k))
          (fun k : Fin 128 => val_main_v103 (F := Ideal) x2 x3 x4 x5 x6 x7 (ix2 (⟨n.val % 800, Nat.mod_lt _ (by decide)⟩ : Fin 800) k)) k := by
  have hn := n.isLt
  have hk := k.isLt
  have e : idx_main_v109 (ix2 n k)
      = ix3 (⟨n.val / 800, by omega⟩ : Fin 800) (⟨n.val % 800, Nat.mod_lt _ (by decide)⟩ : Fin 800) k :=
    funext fun d => Fin.ext (by
      match d with
      | ⟨0, _⟩ => show (n.val * 256 + k.val) / 204800 = n.val / 800; omega
      | ⟨1, _⟩ => show (n.val * 256 + k.val) / 256 % 800 = n.val % 800; omega
      | ⟨2, _⟩ => show (n.val * 256 + k.val) % 256 = k.val; omega)
  rw [val_main_v109_apply, e, joined_apply]

/-- The first layer with its bias and ReLU, at row `n` and output feature `c`. -/
theorem act_apply (n : Fin 640000) (c : Fin 256) :
    val_main_v114 (F := Ideal) x0 x1 x2 x3 x4 x5 x6 x7 x8 x9 (ix2 n c)
      = Cert.PairScore.actConcat
          (fun k : Fin 128 => val_main_v51 (F := Ideal) x0 x1 x4 x5 x6 x7 (ix2 (⟨n.val / 800, by have := n.isLt; omega⟩ : Fin 800) k))
          (fun k : Fin 128 => val_main_v103 (F := Ideal) x2 x3 x4 x5 x6 x7 (ix2 (⟨n.val % 800, Nat.mod_lt _ (by decide)⟩ : Fin 800) k))
          (fun (k c : Fin 256) => x8 (ix2 k c)) (fun c : Fin 256 => x9 (ix1 c)) c := by
  have el : ∀ k : Fin 256, lidx_main_v110 (ix2 n c) k = ix2 n k := fun k =>
    funext fun d => Fin.ext (by match d with | ⟨0, _⟩ => rfl | ⟨1, _⟩ => rfl)
  have er : ∀ k : Fin 256, ridx_main_v110 (ix2 n c) k = ix2 k c := fun k =>
    funext fun d => Fin.ext (by match d with | ⟨0, _⟩ => rfl | ⟨1, _⟩ => rfl)
  have eb : idx_main_v111 (idx_main_v112 (ix2 n c)) = ix1 c :=
    funext fun d => Fin.ext (by match d with | ⟨0, _⟩ => rfl)
  rw [val_main_v114_apply, val_main_v113_apply, val_main_v110_apply, val_main_v112_apply, val_main_v111_apply,
    val_main_call4_v0_apply, val_main_call4_cst_apply, eb]
  simp only [el, er, rows_apply, Ideal.maximumf_def, Ideal.addf_def, Ideal.ofBits_def, Ideal.ofBits_zero_f32]
  rfl

/-- The second layer with its bias and ReLU, at row `n` and output feature `d`. -/
theorem hidden_apply (n : Fin 640000) (d : Fin 64) :
    val_main_v119 (F := Ideal) x0 x1 x2 x3 x4 x5 x6 x7 x8 x9 x10 x11 (ix2 n d)
      = max ((∑ c : Fin 256,
          Cert.PairScore.actConcat
            (fun k : Fin 128 => val_main_v51 (F := Ideal) x0 x1 x4 x5 x6 x7 (ix2 (⟨n.val / 800, by have := n.isLt; omega⟩ : Fin 800) k))
            (fun k : Fin 128 => val_main_v103 (F := Ideal) x2 x3 x4 x5 x6 x7 (ix2 (⟨n.val % 800, Nat.mod_lt _ (by decide)⟩ : Fin 800) k))
            (fun (k c : Fin 256) => x8 (ix2 k c)) (fun c : Fin 256 => x9 (ix1 c)) c * x10 (ix2 c d)) + x11 (ix1 d)) 0 := by
  have el : ∀ k : Fin 256, lidx_main_v115 (ix2 n d) k = ix2 n k := fun k =>
    funext fun a => Fin.ext (by match a with | ⟨0, _⟩ => rfl | ⟨1, _⟩ => rfl)
  have er : ∀ k : Fin 256, ridx_main_v115 (ix2 n d) k = ix2 k d := fun k =>
    funext fun a => Fin.ext (by match a with | ⟨0, _⟩ => rfl | ⟨1, _⟩ => rfl)
  have eb : idx_main_v116 (idx_main_v117 (ix2 n d)) = ix1 d :=
    funext fun a => Fin.ext (by match a with | ⟨0, _⟩ => rfl)
  rw [val_main_v119_apply, val_main_v118_apply, val_main_v115_apply, val_main_v117_apply, val_main_v116_apply,
    val_main_call5_v0_apply, val_main_call5_cst_apply, eb]
  simp only [el, er, act_apply, Ideal.maximumf_def, Ideal.addf_def, Ideal.ofBits_def, Ideal.ofBits_zero_f32]

/-- The reference's result at pair number `n` is the score of the pair `(n / 800, n % 800)`. -/
theorem ref_apply (n : Fin 640000) :
    val_main_v124 (F := Ideal) x0 x1 x2 x3 x4 x5 x6 x7 x8 x9 x10 x11 x12 x13 (ix1 n)
      = Cert.PairScore.score
          (Cert.PairScore.actConcat
            (fun k : Fin 128 => val_main_v51 (F := Ideal) x0 x1 x4 x5 x6 x7 (ix2 (⟨n.val / 800, by have := n.isLt; omega⟩ : Fin 800) k))
            (fun k : Fin 128 => val_main_v103 (F := Ideal) x2 x3 x4 x5 x6 x7 (ix2 (⟨n.val % 800, Nat.mod_lt _ (by decide)⟩ : Fin 800) k))
            (fun (k c : Fin 256) => x8 (ix2 k c)) (fun c : Fin 256 => x9 (ix1 c)))
          (fun (c : Fin 256) (d : Fin 64) => x10 (ix2 c d)) (fun d : Fin 64 => x11 (ix1 d))
          (fun d : Fin 64 => x12 (ix2 d (0 : Fin 1))) (x13 (ix1 (0 : Fin 1))) := by
  have e0 : idx_main_v124 (ix1 n) = ix2 n (0 : Fin 1) :=
    funext fun a => Fin.ext (by
      match a with
      | ⟨0, _⟩ => show n.val / 1 = n.val; omega
      | ⟨1, _⟩ => rfl)
  have el : ∀ k : Fin 64, lidx_main_v120 (ix2 n (0 : Fin 1)) k = ix2 n k := fun k =>
    funext fun a => Fin.ext (by match a with | ⟨0, _⟩ => rfl | ⟨1, _⟩ => rfl)
  have er : ∀ k : Fin 64, ridx_main_v120 (ix2 n (0 : Fin 1)) k = ix2 k (0 : Fin 1) := fun k =>
    funext fun a => Fin.ext (by match a with | ⟨0, _⟩ => rfl | ⟨1, _⟩ => rfl)
  have eb : idx_main_v121 (idx_main_v122 (ix2 n (0 : Fin 1))) = ix1 (0 : Fin 1) :=
    funext fun a => Fin.ext (by match a with | ⟨0, _⟩ => rfl)
  rw [val_main_v124_apply, e0, val_main_v123_apply, val_main_v120_apply, val_main_v122_apply, val_main_v121_apply, eb]
  unfold Cert.PairScore.score
  simp only [el, er, hidden_apply, Ideal.addf_def]

end Cert.ReferenceIdeal.RefValue

end
-- ==== Proof.RefStage.lean ====
/-
  The reference's last stage, as a function of the arguments, is the score of every pair.

  Read stage by stage the reference is `score (actConcat …)` at every position (RefValue.lean); the first layer over the
  joined row equals the first layer split over the two halves of its weight matrix (`actConcat_eq_actSplit`, for all
  extended-real entries), which is how `Cert.PairScore.result` is written.
-/
import proofs.«149957_j27058293965309_2_alg».proof.Proof.RefValue
import proofs.«149957_j27058293965309_2_alg».proof.Proof.Result

noncomputable section

namespace Cert.ReferenceIdeal.RefStage

open Cert.ReferenceIdeal Cert.ReferenceIdeal.ReadP Idealize.ShloMosaic Idealize.ShloMosaic.ValueIdx

theorem stage_eq_result (x0 : (⟨S800x1024, .f32⟩ : BufTy).Contents (Elt Ideal)) (x1 : (⟨S800x10, .i32⟩ : BufTy).Contents (Elt Ideal))
    (x2 : (⟨S800x1024, .f32⟩ : BufTy).Contents (Elt Ideal)) (x3 : (⟨S800x10, .i32⟩ : BufTy).Contents (Elt Ideal))
    (x4 x5 : (⟨S1024x256, .f32⟩ : BufTy).Contents (Elt Ideal)) (x6 x7 : (⟨S256x128, .f32⟩ : BufTy).Contents (Elt Ideal))
    (x8 : (⟨S256x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (x12 : (⟨S64x1, .f32⟩ : BufTy).Contents (Elt Ideal)) (x13 : (⟨S1, .f32⟩ : BufTy).Contents (Elt Ideal)) :
    val_main_v124 (F := Ideal) x0 x1 x2 x3 x4 x5 x6 x7 x8 x9 x10 x11 x12 x13 = Cert.PairScore.result x0 x1 x2 x3 x4 x5 x6 x7 x8 x9 x10 x11 x12 x13 := by
  funext i
  obtain ⟨n, rfl⟩ : ∃ n : Fin 640000, i = ix1 n := ⟨i 0, eq_ix1 i⟩
  rw [Cert.ReferenceIdeal.RefValue.ref_apply, Cert.PairScore.actConcat_eq_actSplit]
  rfl

end Cert.ReferenceIdeal.RefStage

end
-- ==== Proof.RefResult.lean ====
/-
  The reference program's run, read: its result is the score of every pair.

  The reference joins row n / 800 of the first residue table and row n % 800 of the second into one 256-wide row, for
  every position n, and applies the three dense layers to it. Its run ends with the result at the last stage of the
  program read as a function of the arguments (RefRunStretches.lean), and that stage is `Cert.PairScore.result`
  (RefStage.lean).
-/
import proofs.«149957_j27058293965309_2_alg».proof.Proof.RefRunStretches
import proofs.«149957_j27058293965309_2_alg».proof.Proof.RefStage
import proofs.«149957_j27058293965309_2_alg».proof.Proof.Result

noncomputable section

namespace Cert.ReferenceIdeal.RefResult

open Cert.ReferenceIdeal Cert.ReferenceIdeal.Gen Idealize.ShloMosaic Idealize.ShloMosaic.TcCoe
open Idealize.SL.Sem

/-- Every weakly fair execution of the reference program ends with its result at the score of every pair and its
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v124) = Cert.PairScore.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (Cert.ReferenceIdeal.RefStage.stage_eq_result _ _ _ _ _ _ _ _ _ _ _ _ _ _), (h c).2⟩)
    (Cert.ReferenceIdeal.ByStretches.run (F := Ideal) m ρ)

end Cert.ReferenceIdeal.RefResult

end
-- ==== Proof.lean ====
/-
  The certificate of the pair-scoring kernel against its reference, at the ideal values.

  Both programs first run the same two graph layers on each protein's inputs (the same host operations on the same
  arguments), giving two tables of 800 residue rows with 128 features. The reference then joins row i of the first
  table and row j of the second, for every pair, and applies three dense layers (256 → 256 with ReLU, 256 → 64 with
  ReLU, 64 → 1). The kernel program instead multiplies each table once by its own half of the first layer's weight
  matrix on the host (with rows zero-padded to 896), and a tile kernel over a 7 x 7 grid adds the two projected rows
  and the bias for every pair of a 128 x 128 tile, clips at 0, applies the second layer by one matrix product, and the
  third by a product and a sum along the last axis; the host keeps the 800 x 800 corner. On the extended reals a change
  of float format is the identity and a sum over the 256 joined features is the sum over the first 128 plus the sum over
  the last 128, so both results are one function of the arguments (`Cert.PairScore.result`): Proof/KernelRun.lean for the
  kernel program (tile entry: KernelBlock.lean; tiles to table: KernelArray.lean; host side: KernelHost.lean), and
  Proof/RefResult.lean for the reference (its run in two stretches: RefRunStretches.lean; its stages read: RefValue.lean, RefStage.lean). No finiteness of the inputs is used: the law is commutativity
  and associativity of addition only. The kernel is printed as its own idealization (no rewrite), so there is nothing
  to preserve.
-/
import proofs.«149957_j27058293965309_2_alg».proof.Defs
import proofs.«149957_j27058293965309_2_alg».proof.Proof.Gen.Kernel
import proofs.«149957_j27058293965309_2_alg».proof.Proof.Gen.Kernel.Skeleton
import proofs.«149957_j27058293965309_2_alg».proof.Proof.Gen.Kernel.Launch
import proofs.«149957_j27058293965309_2_alg».proof.Proof.Gen.Kernel.Points
import proofs.«149957_j27058293965309_2_alg».proof.Proof.Gen.Kernel.Frame
import proofs.«149957_j27058293965309_2_alg».proof.Proof.Gen.KernelIdeal
import proofs.«149957_j27058293965309_2_alg».proof.Proof.Gen.KernelIdeal.Skeleton
import proofs.«149957_j27058293965309_2_alg».proof.Proof.Gen.KernelIdeal.Launch
import proofs.«149957_j27058293965309_2_alg».proof.Proof.Gen.KernelIdeal.Points
import proofs.«149957_j27058293965309_2_alg».proof.Proof.Gen.KernelIdeal.Frame
import proofs.«149957_j27058293965309_2_alg».proof.Proof.Gen.ReferenceIdeal
import proofs.«149957_j27058293965309_2_alg».proof.Proof.Gen.Pre_finite_inputs
import proofs.«149957_j27058293965309_2_alg».proof.Proof.KernelRun
import proofs.«149957_j27058293965309_2_alg».proof.Proof.RefResult
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ByStretches.run (F := Ideal) m ρ)

/-- From memories that agree on the arguments both idealized programs end with the score of every pair. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩) (Cert.ReferenceIdeal.RefResult.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
